-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4x96x96 : Shape := ⟨4, ![2, 4, 96, 96]⟩
abbrev S2x2x96x96 : Shape := ⟨4, ![2, 2, 96, 96]⟩
abbrev S_ : Shape := ⟨0, ![]⟩

class Facts : Prop where
  bcast_S_S2x4x96x96 : S_.BroadcastsInDim S2x4x96x96 (![] : Fin 0 → Fin S2x4x96x96.rank)
  reducesTo_S2x4x96x96_S_d0_1_2_3 : S2x4x96x96.ReducesTo [0, 1, 2, 3] S_
  h_S_ : 0 < S_.numel
  bcast_S_S2x2x96x96 : S_.BroadcastsInDim S2x2x96x96 (![] : Fin 0 → Fin S2x2x96x96.rank)
  reducesTo_S2x2x96x96_S_d0_1_2_3 : S2x2x96x96.ReducesTo [0, 1, 2, 3] S_

variable [Facts]

def fn {F : FTy → Type} [FloatOps F] (main_arg0 : FVec F S2x4x96x96 .f32) (main_arg1 : FVec F S2x2x96x96 .f32) : IVec S_ 1 :=
  let main_v0 : FVec F S2x4x96x96 .f32 := Host.absf main_arg0
  let main_cst : FVec F S_ .f32 := constant S_ .f32 0x7F800000#32
  let main_v1 : FVec F S2x4x96x96 .f32 := broadcastInDim S2x4x96x96 ![] bcast_S_S2x4x96x96 main_cst
  let main_v2 : IVec S2x4x96x96 1 := cmpf .olt main_v0 main_v1
  let main_c : IVec S_ 1 := constantI S_ 1 1#1
  let main_v3 : IVec S_ 1 := (fun x v => Host.reduce IntOp.andi x v reducesTo_S2x4x96x96_S_d0_1_2_3 h_S_) main_v2 main_c
  let main_v4 : FVec F S2x2x96x96 .f32 := Host.absf main_arg1
  let main_cst_0 : FVec F S_ .f32 := constant S_ .f32 0x7F800000#32
  let main_v5 : FVec F S2x2x96x96 .f32 := broadcastInDim S2x2x96x96 ![] bcast_S_S2x2x96x96 main_cst_0
  let main_v6 : IVec S2x2x96x96 1 := cmpf .olt main_v4 main_v5
  let main_c_1 : IVec S_ 1 := constantI S_ 1 1#1
  let main_v7 : IVec S_ 1 := (fun x v => Host.reduce IntOp.andi x v reducesTo_S2x2x96x96_S_d0_1_2_3 h_S_) main_v6 main_c_1
  let main_v8 : IVec S_ 1 := andi main_v3 main_v7
  main_v8
-- ==== Kernel.lean ====
abbrev S2x4x96x96 : Shape := ⟨4, ![2, 4, 96, 96]⟩
abbrev S2x2x96x96 : Shape := ⟨4, ![2, 2, 96, 96]⟩
abbrev S1x4 : Shape := ⟨2, ![1, 4]⟩
abbrev S2x1x96x96 : Shape := ⟨4, ![2, 1, 96, 96]⟩
abbrev S2x96x96 : Shape := ⟨3, ![2, 96, 96]⟩
abbrev S192x96 : Shape := ⟨2, ![192, 96]⟩
abbrev S192 : Shape := ⟨1, ![192]⟩
abbrev S192x1 : Shape := ⟨2, ![192, 1]⟩
abbrev S1 : Shape := ⟨1, ![1]⟩
abbrev S1x1 : Shape := ⟨2, ![1, 1]⟩
abbrev S768x96 : Shape := ⟨2, ![768, 96]⟩
abbrev S768 : Shape := ⟨1, ![768]⟩
abbrev S768x1 : Shape := ⟨2, ![768, 1]⟩
abbrev S2x9216 : Shape := ⟨2, ![2, 9216]⟩
abbrev S2x768 : Shape := ⟨2, ![2, 768]⟩
abbrev S2x768x1 : Shape := ⟨3, ![2, 768, 1]⟩
abbrev S2x1x768 : Shape := ⟨3, ![2, 1, 768]⟩
abbrev S2x768x768 : Shape := ⟨3, ![2, 768, 768]⟩
abbrev S1536x768 : Shape := ⟨2, ![1536, 768]⟩
abbrev S1536 : Shape := ⟨1, ![1536]⟩
abbrev S1536x1 : Shape := ⟨2, ![1536, 1]⟩
abbrev S_ : Shape := ⟨0, ![]⟩

abbrev nBuf : Space → Nat
  | .hbm => 26
  | .vmem => 9
  | .smem => 0
  | _ => 0

abbrev bufTy : (tb : Table) → Fin (tcTables nBuf tb) → BufTy
  | .hbm, ⟨0, _⟩ => ⟨S2x4x96x96, .f32⟩
  | .hbm, ⟨1, _⟩ => ⟨S2x2x96x96, .f32⟩
  | .hbm, ⟨2, _⟩ => ⟨S1x4, .f32⟩
  | .hbm, ⟨3, _⟩ => ⟨S2x1x96x96, .f32⟩
  | .hbm, ⟨4, _⟩ => ⟨S2x9216, .f32⟩
  | .hbm, ⟨5, _⟩ => ⟨S1x1, .f32⟩
  | .hbm, ⟨6, _⟩ => ⟨S1x1, .f32⟩
  | .hbm, ⟨7, _⟩ => ⟨S_, .f32⟩
  | .hbm, ⟨8, _⟩ => ⟨S1x1, .f32⟩
  | .hbm, ⟨9, _⟩ => ⟨S_, .f32⟩
  | .hbm, ⟨10, _⟩ => ⟨S1x1, .f32⟩
  | .hbm, ⟨11, _⟩ => ⟨S_, .f32⟩
  | .hbm, ⟨12, _⟩ => ⟨S1x1, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .local _ .vmem, ⟨0, _⟩ => ⟨S2x4x96x96, .f32⟩
  | .local _ .vmem, ⟨1, _⟩ => ⟨S2x2x96x96, .f32⟩
  | .local _ .vmem, ⟨2, _⟩ => ⟨S1x4, .f32⟩
  | .local _ .vmem, ⟨3, _⟩ => ⟨S2x1x96x96, .f32⟩
  | .local _ .vmem, ⟨4, _⟩ => ⟨S2x768, .f32⟩
  | .local _ .vmem, ⟨5, _⟩ => ⟨S2x768, .f32⟩
  | .local _ .vmem, ⟨6, _⟩ => ⟨S2x768, .f32⟩
  | .local _ .vmem, ⟨7, _⟩ => ⟨S2x768, .f32⟩
  | .local _ .vmem, ⟨8, _⟩ => ⟨S1x1, .f32⟩
  | _, _ => ⟨S2x4x96x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_1 : Ref sig .tc := ⟨.hbm, 24, rfl⟩
abbrev main_v19 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 1 → Memref sig .tc .vmem S2x4x96x96 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x2x96x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x1x96x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨2, ![12, 12], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2x768 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

class Facts₀ : Prop where
  inb_S2x4x96x96_S2x4x96x96_0_0_0_0 : ∀ a, (![0, 0, 0, 0] : Fin 4 → Nat) a + S2x4x96x96.size a ≤ S2x4x96x96.size a
  h_S2x4x96x96 : 0 < S2x4x96x96.numel
  inb_S2x2x96x96_S2x2x96x96_0_0_0_0 : ∀ a, (![0, 0, 0, 0] : Fin 4 → Nat) a + S2x2x96x96.size a ≤ S2x2x96x96.size a
  h_S2x2x96x96 : 0 < S2x2x96x96.numel
  slices_S2x2x96x96_o0_1_0_0_S2x1x96x96 : S2x2x96x96.Slices ![0, 1, 0, 0] S2x1x96x96
  slices_S2x2x96x96_o0_0_0_0_S2x1x96x96 : S2x2x96x96.Slices ![0, 0, 0, 0] S2x1x96x96
  reduces_S2x4x96x96_S2x96x96 : S2x4x96x96.Reduces [1] S2x96x96
  shapeCasts_S2x96x96_S2x1x96x96 : S2x96x96.ShapeCasts S2x1x96x96
  shapeCasts_S2x1x96x96_S192x96 : S2x1x96x96.ShapeCasts S192x96
  reduces_S192x96_S192 : S192x96.Reduces [1] S192
  shapeCasts_S192_S192x1 : S192.ShapeCasts S192x1
  reduces_S192x1_S1 : S192x1.Reduces [0] S1
  shapeCasts_S1_S1x1 : S1.ShapeCasts S1x1
  broadcasts_S2x1x96x96_S2x4x96x96 : S2x1x96x96.Broadcasts S2x4x96x96
  shapeCasts_S2x4x96x96_S768x96 : S2x4x96x96.ShapeCasts S768x96
  reduces_S768x96_S768 : S768x96.Reduces [1] S768
  shapeCasts_S768_S768x1 : S768.ShapeCasts S768x1
  reduces_S768x1_S1 : S768x1.Reduces [0] S1
  natLt_1_32 : 1 < 32
  concatenates_S1x1_S1x1_S1x1_S1x1_S1x4_d1 : Shape.Concatenates [S1x1, S1x1, S1x1, S1x1] S1x4 1
  inb_S1x4_S1x4_0_0 : ∀ a, (![0, 0] : Fin 2 → Nat) a + S1x4.size a ≤ S1x4.size a
  h_S1x4 : 0 < S1x4.numel
  inb_S2x1x96x96_S2x1x96x96_0_0_0_0 : ∀ a, (![0, 0, 0, 0] : Fin 4 → Nat) a + S2x1x96x96.size a ≤ S2x1x96x96.size a
  h_S2x1x96x96 : 0 < S2x1x96x96.numel
  shapeCasts_S2x1x96x96_S2x9216 : S2x1x96x96.ShapeCasts S2x9216
  inb_S1x1_S1x1_0_0 : ∀ a, (![0, 0] : Fin 2 → Nat) a + S1x1.size a ≤ S1x1.size a
  h_S1x1 : 0 < S1x1.numel
  inb_S2x768_S2x768_0_0 : ∀ a, (![0, 0] : Fin 2 → Nat) a + S2x768.size a ≤ S2x768.size a
  h_S2x768 : 0 < S2x768.numel
  shapeCasts_S2x768_S2x768 : S2x768.ShapeCasts S2x768
  shapeCasts_S2x768_S2x768x1 : S2x768.ShapeCasts S2x768x1
  shapeCasts_S2x768_S2x1x768 : S2x768.ShapeCasts S2x1x768
  broadcasts_S2x768x1_S2x768x768 : S2x768x1.Broadcasts S2x768x768
  broadcasts_S2x1x768_S2x768x768 : S2x1x768.Broadcasts S2x768x768
  shapeCasts_S2x768x768_S1536x768 : S2x768x768.ShapeCasts S1536x768
  reduces_S1536x768_S1536 : S1536x768.Reduces [1] S1536
  shapeCasts_S1536_S1536x1 : S1536.ShapeCasts S1536x1
  reduces_S1536x1_S1 : S1536x1.Reduces [0] S1
  shapeCasts_S1x1_S1x1 : S1x1.ShapeCasts S1x1
  slices_S1x4_S1x1_0_0 : S1x4.Slices ![0, 0] S1x1
  shapeCasts_S1x1_S_ : S1x1.ShapeCasts S_
  slices_S1x4_S1x1_0_1 : S1x4.Slices ![0, 1] S1x1
  slices_S1x4_S1x1_0_2 : S1x4.Slices ![0, 2] S1x1
  slices_S1x4_S1x1_0_3 : S1x4.Slices ![0, 3] S1x1
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2x4x96x96.size a ≤ S2x4x96x96.size a
  hwx0_0 : ∀ i : grid0.Coords, EltTy.bits .f32 = 32 ∨ (Rect.block (s := S2x4x96x96) S2x4x96x96.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x2x96x96.size a ≤ S2x2x96x96.size a
  hwx0_1 : ∀ i : grid0.Coords, EltTy.bits .f32 = 32 ∨ (Rect.block (s := S2x2x96x96) S2x2x96x96.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4.size a ≤ S1x4.size a
  hwx0_2 : ∀ i : grid0.Coords, EltTy.bits .f32 = 32 ∨ (Rect.block (s := S1x4) S1x4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x1x96x96.size a ≤ S2x1x96x96.size a
  hwx0_3 : ∀ i : grid0.Coords, EltTy.bits .f32 = 32 ∨ (Rect.block (s := S2x1x96x96) S2x1x96x96.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2x768.size a ≤ S2x9216.size a
  hwx1_0 : ∀ i : grid1.Coords, EltTy.bits .f32 = 32 ∨ (Rect.block (s := S2x9216) S2x768.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2x768.size a ≤ S2x9216.size a
  hwx1_1 : ∀ i : grid1.Coords, EltTy.bits .f32 = 32 ∨ (Rect.block (s := S2x9216) S2x768.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)

variable [Facts₀]

abbrev win0_0 : Pipeline.Window sig grid0 :=
  Pipeline.Window.ofSpec (Memref.whole main_arg0) S2x4x96x96.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x2x96x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x4.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S2x1x96x96.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S2x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S2x768.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x1.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S2x4x96x96 : Shape := ⟨4, ![2, 4, 96, 96]⟩
abbrev S2x2x96x96 : Shape := ⟨4, ![2, 2, 96, 96]⟩
abbrev S2x1x96x96 : Shape := ⟨4, ![2, 1, 96, 96]⟩
abbrev S2x96x96 : Shape := ⟨3, ![2, 96, 96]⟩
abbrev S_ : Shape := ⟨0, ![]⟩
abbrev S2x9216 : Shape := ⟨2, ![2, 9216]⟩
abbrev S2x9216x1 : Shape := ⟨3, ![2, 9216, 1]⟩
abbrev S2x1x9216 : Shape := ⟨3, ![2, 1, 9216]⟩
abbrev S2x9216x9216 : Shape := ⟨3, ![2, 9216, 9216]⟩

abbrev nBuf : Space → Nat
  | .hbm => 89
  | .vmem => 0
  | .smem => 0
  | _ => 0

abbrev bufTy : (tb : Table) → Fin (tcTables nBuf tb) → BufTy
  | .hbm, ⟨0, _⟩ => ⟨S2x4x96x96, .f32⟩
  | .hbm, ⟨1, _⟩ => ⟨S2x2x96x96, .f32⟩
  | .hbm, ⟨2, _⟩ => ⟨S2x1x96x96, .f32⟩
  | .hbm, ⟨3, _⟩ => ⟨S2x1x96x96, .f32⟩
  | .hbm, ⟨4, _⟩ => ⟨S2x96x96, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S2x4x96x96, .f32⟩
  | .hbm, ⟨10, _⟩ => ⟨S_, .f32⟩
  | .hbm, ⟨11, _⟩ => ⟨S2x96x96, .f32⟩
  | .hbm, ⟨12, _⟩ => ⟨S2x1x96x96, .f32⟩
  | .hbm, ⟨13, _⟩ => ⟨S2x1x96x96, .f32⟩
  | .hbm, ⟨14, _⟩ => ⟨S2x1x96x96, .f32⟩
  | .hbm, ⟨15, _⟩ => ⟨S2x1x96x96, .f32⟩
  | .hbm, ⟨16, _⟩ => ⟨S2x1x96x96, .f32⟩
  | .hbm, ⟨17, _⟩ => ⟨S_, .f32⟩
  | .hbm, ⟨18, _⟩ => ⟨S2x1x96x96, .f32⟩
  | .hbm, ⟨19, _⟩ => ⟨S2x1x96x96, .i1⟩
  | .hbm, ⟨20, _⟩ => ⟨S_, .f32⟩
  | .hbm, ⟨21, _⟩ => ⟨S2x1x96x96, .f32⟩
  | .hbm, ⟨22, _⟩ => ⟨S2x1x96x96, .f32⟩
  | .hbm, ⟨23, _⟩ => ⟨S2x1x96x96, .f32⟩
  | .hbm, ⟨24, _⟩ => ⟨S_, .f32⟩
  | .hbm, ⟨25, _⟩ => ⟨S2x1x96x96, .f32⟩
  | .hbm, ⟨26, _⟩ => ⟨S2x1x96x96, .f32⟩
  | .hbm, ⟨27, _⟩ => ⟨S2x1x96x96, .f32⟩
  | .hbm, ⟨28, _⟩ => ⟨S2x1x96x96, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S2x1x96x96, .f32⟩
  | .hbm, ⟨36, _⟩ => ⟨S2x1x96x96, .f32⟩
  | .hbm, ⟨37, _⟩ => ⟨S2x4x96x96, .f32⟩
  | .hbm, ⟨38, _⟩ => ⟨S2x4x96x96, .f32⟩
  | .hbm, ⟨39, _⟩ => ⟨S2x4x96x96, .f32⟩
  | .hbm, ⟨40, _⟩ => ⟨S2x4x96x96, .f32⟩
  | .hbm, ⟨41, _⟩ => ⟨S_, .f32⟩
  | .hbm, ⟨42, _⟩ => ⟨S2x96x96, .f32⟩
  | .hbm, ⟨43, _⟩ => ⟨S2x1x96x96, .f32⟩
  | .hbm, ⟨44, _⟩ => ⟨S_, .f32⟩
  | .hbm, ⟨45, _⟩ => ⟨S2x1x96x96, .f32⟩
  | .hbm, ⟨46, _⟩ => ⟨S2x1x96x96, .f32⟩
  | .hbm, ⟨47, _⟩ => ⟨S2x1x96x96, .f32⟩
  | .hbm, ⟨48, _⟩ => ⟨S2x4x96x96, .f32⟩
  | .hbm, ⟨49, _⟩ => ⟨S2x4x96x96, .f32⟩
  | .hbm, ⟨50, _⟩ => ⟨S2x4x96x96, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S2x96x96, .f32⟩
  | .hbm, ⟨55, _⟩ => ⟨S2x96x96, .f32⟩
  | .hbm, ⟨56, _⟩ => ⟨S2x96x96, .f32⟩
  | .hbm, ⟨57, _⟩ => ⟨S2x9216, .f32⟩
  | .hbm, ⟨58, _⟩ => ⟨S_, .f32⟩
  | .hbm, ⟨59, _⟩ => ⟨S2x9216, .f32⟩
  | .hbm, ⟨60, _⟩ => ⟨S2x9216, .i1⟩
  | .hbm, ⟨61, _⟩ => ⟨S2x9216, .f32⟩
  | .hbm, ⟨62, _⟩ => ⟨S2x9216x1, .f32⟩
  | .hbm, ⟨63, _⟩ => ⟨S2x1x9216, .f32⟩
  | .hbm, ⟨64, _⟩ => ⟨S2x9216x9216, .f32⟩
  | .hbm, ⟨65, _⟩ => ⟨S2x9216x9216, .f32⟩
  | .hbm, ⟨66, _⟩ => ⟨S2x9216x9216, .f32⟩
  | .hbm, ⟨67, _⟩ => ⟨S2x9216x9216, .f32⟩
  | .hbm, ⟨68, _⟩ => ⟨S_, .f32⟩
  | .hbm, ⟨69, _⟩ => ⟨S2x9216x9216, .f32⟩
  | .hbm, ⟨70, _⟩ => ⟨S2x9216x9216, .f32⟩
  | .hbm, ⟨71, _⟩ => ⟨S_, .f32⟩
  | .hbm, ⟨72, _⟩ => ⟨S2x9216x9216, .f32⟩
  | .hbm, ⟨73, _⟩ => ⟨S2x9216x9216, .f32⟩
  | .hbm, ⟨74, _⟩ => ⟨S2x9216x1, .f32⟩
  | .hbm, ⟨75, _⟩ => ⟨S2x1x9216, .f32⟩
  | .hbm, ⟨76, _⟩ => ⟨S2x9216x9216, .f32⟩
  | .hbm, ⟨77, _⟩ => ⟨S2x9216x9216, .f32⟩
  | .hbm, ⟨78, _⟩ => ⟨S2x9216x9216, .f32⟩
  | .hbm, ⟨79, _⟩ => ⟨S2x9216x9216, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | _, _ => ⟨S2x4x96x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_cst_6 : Ref sig .tc := ⟨.hbm, 31, rfl⟩
abbrev main_v22 : Ref sig .tc := ⟨.hbm, 32, rfl⟩
abbrev main_v23 : Ref sig .tc := ⟨.hbm, 33, rfl⟩
abbrev main_cst_7 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_8 : Ref sig .tc := ⟨.hbm, 41, rfl⟩
abbrev main_v30 : Ref sig .tc := ⟨.hbm, 42, rfl⟩
abbrev main_v31 : Ref sig .tc := ⟨.hbm, 43, rfl⟩
abbrev main_cst_9 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_10 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_11 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_12 : Ref sig .tc := ⟨.hbm, 68, rfl⟩
abbrev main_v53 : Ref sig .tc := ⟨.hbm, 69, rfl⟩
abbrev main_v54 : Ref sig .tc := ⟨.hbm, 70, rfl⟩
abbrev main_call1_cst : Ref sig .tc := ⟨.hbm, 71, rfl⟩
abbrev main_call1_v0 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_13 : Ref sig .tc := ⟨.hbm, 80, rfl⟩
abbrev main_v62 : Ref sig .tc := ⟨.hbm, 81, rfl⟩
abbrev main_cst_14 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_15 : Ref sig .tc := ⟨.hbm, 87, rfl⟩
abbrev main_v67 : Ref sig .tc := ⟨.hbm, 88, rfl⟩

abbrev nD : Nat := 1
abbrev τ : Topo := Topo.v7x

variable {F : FTy → Type} [FloatOps F]

class Facts₀ : Prop where
  slices_S2x2x96x96_S2x1x96x96_0_1_0_0 : S2x2x96x96.Slices ![0, 1, 0, 0] S2x1x96x96
  shapeCasts_S2x1x96x96_S2x96x96 : S2x1x96x96.ShapeCasts S2x96x96
  reducesTo_S2x96x96_S_d0_1_2 : S2x96x96.ReducesTo [0, 1, 2] S_
  h_S_ : 0 < S_.numel
  reducesTo_S2x4x96x96_S2x96x96_d1 : S2x4x96x96.ReducesTo [1] S2x96x96
  bcast_S2x96x96_S2x1x96x96_0_2_3 : S2x96x96.BroadcastsInDim S2x1x96x96 (![0, 2, 3] : Fin 3 → Fin S2x1x96x96.rank)
  slices_S2x2x96x96_S2x1x96x96_0_0_0_0 : S2x2x96x96.Slices ![0, 0, 0, 0] S2x1x96x96
  bcast_S_S2x1x96x96 : S_.BroadcastsInDim S2x1x96x96 (![] : Fin 0 → Fin S2x1x96x96.rank)
  reducesTo_S2x1x96x96_S_d0_1_2_3 : S2x1x96x96.ReducesTo [0, 1, 2, 3] S_
  bcast_S2x1x96x96_S2x4x96x96_0_1_2_3 : S2x1x96x96.BroadcastsInDim S2x4x96x96 (![0, 1, 2, 3] : Fin 4 → Fin S2x4x96x96.rank)
  reducesTo_S2x4x96x96_S_d0_1_2_3 : S2x4x96x96.ReducesTo [0, 1, 2, 3] S_
  shapeCasts_S2x96x96_S2x9216 : S2x96x96.ShapeCasts S2x9216
  bcast_S_S2x9216 : S_.BroadcastsInDim S2x9216 (![] : Fin 0 → Fin S2x9216.rank)
  bcast_S2x9216_S2x9216x1_0_1 : S2x9216.BroadcastsInDim S2x9216x1 (![0, 1] : Fin 2 → Fin S2x9216x1.rank)
  bcast_S2x9216_S2x1x9216_0_2 : S2x9216.BroadcastsInDim S2x1x9216 (![0, 2] : Fin 2 → Fin S2x1x9216.rank)
  bcast_S2x9216x1_S2x9216x9216_0_1_2 : S2x9216x1.BroadcastsInDim S2x9216x9216 (![0, 1, 2] : Fin 3 → Fin S2x9216x9216.rank)
  bcast_S2x1x9216_S2x9216x9216_0_1_2 : S2x1x9216.BroadcastsInDim S2x9216x9216 (![0, 1, 2] : Fin 3 → Fin S2x9216x9216.rank)
  bcast_S_S2x9216x9216 : S_.BroadcastsInDim S2x9216x9216 (![] : Fin 0 → Fin S2x9216x9216.rank)
  reducesTo_S2x9216x9216_S_d0_1_2 : S2x9216x9216.ReducesTo [0, 1, 2] S_
  reducesTo_S2x9216_S_d0_1 : S2x9216.ReducesTo [0, 1] S_

variable [Facts₀]

class Facts : Prop extends Facts₀ where

variable [Facts]
-- ==== Proof.K.Region0.lean ====
/- The body obligation of pallas_call 0 (`cc0__kernel_elementwise`, a grid of one point), at a parameter `V`: the
   TensorCore's buffer contents when the region is entered. The body loads its two input windows whole, computes, and
   stores each of its two output windows whole (after a load of each whose value is not used), so each output's staging
   buffer after the body is ONE whole-block store's payload of the two input blocks: `out0_2`, `out0_3` and their closed
   forms `out0_2_eq`, `out0_3_eq`; the body's triple `sound_kernel0`; the pipeline's proof data `dat0`; and the
   library's body obligation `body_obligation0`. Every statement is at any float model `F`. -/
import proofs.«156140_j33363305955887_2_alg».proof.Proof.Gen.Kernel.Launch
import proofs.«156140_j33363305955887_2_alg».proof.Proof.Gen.Kernel.Skeleton
import proofs.«156140_j33363305955887_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same of input window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each staging buffer through its whole rectangle -/

abbrev r0_0 : Rect S2x4x96x96 := Rect.unit (s := S2x4x96x96) ![0, 0, 0, 0] S2x4x96x96.size inb_S2x4x96x96_S2x4x96x96_0_0_0_0
abbrev r0_1 : Rect S2x2x96x96 := Rect.unit (s := S2x2x96x96) ![0, 0, 0, 0] S2x2x96x96.size inb_S2x2x96x96_S2x2x96x96_0_0_0_0
abbrev r0_2 : Rect S1x4 := Rect.unit (s := S1x4) ![0, 0] S1x4.size inb_S1x4_S1x4_0_0
abbrev r0_3 : Rect S2x1x96x96 := Rect.unit (s := S2x1x96x96) ![0, 0, 0, 0] S2x1x96x96.size inb_S2x1x96x96_S2x1x96x96_0_0_0_0

/-- The offsets of those rectangles are zero on every axis. -/
theorem zeroOff0_2 : (![0, 0] : Fin 2 → Nat) = fun _ => 0 := funext fun a => by fin_cases a <;> rfl
theorem zeroOff0_4 : (![0, 0, 0, 0] : Fin 4 → Nat) = fun _ => 0 := funext fun a => by fin_cases a <;> rfl

/-! ## What the body leaves in each output window's buffer -/

/-- Window 2's staging buffer after the body, from the input windows' blocks: its one store as a piece. -/
def out0_2 (x0 : Vec F S2x4x96x96 .f32) (x1 : Vec F S2x2x96x96 .f32) : Vec F S1x4 .f32 :=
  View.canon [⟨r0_2, k0_pay2 (k0_pay3 (View.ld x1 r0_1)) (k0_pay5 (View.ld x0 r0_0) (View.ld x1 r0_1))
    (k0_pay7 (View.ld x0 r0_0) (View.ld x1 r0_1)) (k0_pay8 (View.ld x0 r0_0) (View.ld x1 r0_1))⟩]

/-- Window 3's staging buffer after the body, likewise. -/
def out0_3 (x0 : Vec F S2x4x96x96 .f32) (x1 : Vec F S2x2x96x96 .f32) : Vec F S2x1x96x96 .f32 :=
  View.canon [⟨r0_3, k0_pay1 (k0_pay3 (View.ld x1 r0_1)) (k0_pay7 (View.ld x0 r0_0) (View.ld x1 r0_1))⟩]

/-- One store through the whole rectangle leaves its payload, and a load through the whole rectangle reads the
    contents: window 2 ends holding the payload of the two blocks. -/
theorem out0_2_eq (x0 : Vec F S2x4x96x96 .f32) (x1 : Vec F S2x2x96x96 .f32) :
    out0_2 x0 x1 = k0_pay2 (k0_pay3 x1) (k0_pay5 x0 x1) (k0_pay7 x0 x1) (k0_pay8 x0 x1) := by
  unfold out0_2
  rw [View.canon_unit_zero zeroOff0_2]
  simp only [View.ld_unit_zero (S := S2x4x96x96) zeroOff0_4, View.ld_unit_zero (S := S2x2x96x96) zeroOff0_4]

/-- And window 3. -/
theorem out0_3_eq (x0 : Vec F S2x4x96x96 .f32) (x1 : Vec F S2x2x96x96 .f32) :
    out0_3 x0 x1 = k0_pay1 (k0_pay3 x1) (k0_pay7 x0 x1) := by
  unfold out0_3
  rw [View.canon_unit_zero zeroOff0_4]
  simp only [View.ld_unit_zero (S := S2x4x96x96) zeroOff0_4, View.ld_unit_zero (S := S2x2x96x96) zeroOff0_4]

/-- Each output's one store covers its buffer: every index is in the whole rectangle. -/
theorem cover0_2 (p0 : Vec F S1x4 .f32) (y : S1x4.Idx) :
    ∃ pc ∈ ([⟨r0_2, p0⟩] : List (View.Piece (Elt F) S1x4 .f32)), y ∈ pc.1.set :=
  ⟨_, List.mem_singleton_self _, View.mem_set_unit_zero zeroOff0_2 inb_S1x4_S1x4_0_0 y⟩

theorem cover0_3 (p0 : Vec F S2x1x96x96 .f32) (y : S2x1x96x96.Idx) :
    ∃ pc ∈ ([⟨r0_3, p0⟩] : List (View.Piece (Elt F) S2x1x96x96 .f32)), y ∈ pc.1.set :=
  ⟨_, List.mem_singleton_self _, View.mem_set_unit_zero zeroOff0_4 inb_S2x1x96x96_S2x1x96x96_0_0_0_0 y⟩

/-! ## The body's triple -/

set_option maxHeartbeats 1000000 in
/-- The kernel body on whole staging memrefs, the inputs' at read contents `x0`, `x1` and the outputs' at anything, runs
    to the continuation holding the inputs' as they were and each output's at `out0_W` of the inputs'. -/
theorem sound_kernel0 (c : Dev nD) (E : Set ℕ) (i : grid0.Coords)
    (arg1 : Memref sig .tc .vmem S2x4x96x96 .f32) (harg1 : arg1.IsWhole) (arg2 : Memref sig .tc .vmem S2x2x96x96 .f32) (harg2 : arg2.IsWhole)
    (arg3 : Memref sig .tc .vmem S1x4 .f32) (harg3 : arg3.IsWhole) (arg4 : Memref sig .tc .vmem S2x1x96x96 .f32) (harg4 : arg4.IsWhole)
    (x0 : Vec F S2x4x96x96 .f32) (x1 : Vec F S2x2x96x96 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (out0_2 x0 x1) ∗ owns (c : Thread nD τ) arg4 fullShare (out0_3 x0 x1)) -∗ K ⟨⟩))
      ⊢ wp frame (wpE (defs₀ (F := F)) Variants.none c none) E (cc0__kernel_elementwise i arg1 harg1 arg2 harg2 arg3 harg3 arg4 harg4) K := by
  simp only [cc0__kernel_elementwise_eq_skeleton]; unfold cc0__kernel_elementwise_skel
  simp only [k0_part1_eq_skeleton]; unfold k0_part1_skel
  unfold owns
  iintro ⟨⟨%f0, %hf0, H0⟩, ⟨%f1, %hf1, H1⟩, ⟨%d2, %f2, -, H2⟩, ⟨%d3, %f3, -, H3⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_2 _)
  iexists _; isplitr
  swap; · iexact H3
  ipureintro
  exact View.read_writes_eq_canon _ _ _ (cover0_3 _)

/-! ## The pipeline's proof data -/

/-- The proof data of pipeline 0 on core `c`: the arrays as the region finds them (`V`); after the body at point `t`
    each input's buffer at its block and each output's at `out0_W` of the two input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.K.Region1Runs.lean ====
/- Region 1 (the second pallas_call, a 12 × 12 grid accumulating into a 1 × 1 output block): what the
   case runs of its body share — each window's block at a point, the two input windows' staging buffers
   holding their blocks at every point, the body's branch condition in closed form, and the staging
   memrefs as the pipeline passes them. -/
import proofs.«156140_j33363305955887_2_alg».proof.Proof.Gen.Kernel.Launch
import proofs.«156140_j33363305955887_2_alg».proof.Proof.Gen.Kernel.Skeleton
import proofs.«156140_j33363305955887_2_alg».proof.Proof.Gen.Kernel.Points
import Idealize.ShloMosaic.Lib.Pipeline.FrameBody
import Idealize.ShloMosaic.Lib.Ring
import Idealize.ShloMosaic.Lib.Tactic

-- membership in a rectangle of production extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (its block
    index moves every 12 points; unfetched, the index has not moved and the body left the block in place), for any
    proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point (it is fetched at every point). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch condition -/

/-- The condition of the body's conditional: both grid coordinates are zero (the scalar chain of the body substituted). -/
abbrev cond1_0 (i : grid1.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — decided over the grid. -/
theorem hcond1_0 : ∀ t : Fin cfg1.N, cond1_0 (grid1.coords t) ↔ t.val % 144 = 0 :=
  (by decide +kernel : ∀ t : Fin grid1.N, cond1_0 (grid1.coords t) ↔ t.val % 144 = 0)

/-! ## The staging memrefs -/

/-- The staging buffer of output window 2, through which its contents are stated. -/
abbrev VO1_2 : View sig .tc .vmem S1x1 .f32 := (Memref.whole cc1_stg2_0 : Memref sig .tc .vmem S1x1 .f32).view
/-- Each window's current staging memref at point `t`, spelled as the pipeline passes it, and its wholeness. -/
abbrev ms1_0 (t : Fin cfg1.N) : Memref sig .tc .vmem S2x768 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2x768 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1 .f32 := win1_2.stage (cfg1.slots t 2)
abbrev hs1_2 (t : Fin cfg1.N) : (ms1_2 t).IsWhole := hstage1_2 ((cfg1.slots t 2).cast nbuf1_2)

end Cert.Kernel.Hand

end
-- ==== Proof.K.Region1RunA.lean ====
/- Region 1, the body's run at the first grid point (both coordinates zero, the conditional taken): the body
   stores zeros into the output block, loads its two input blocks whole, loads the output block back and stores
   the sum of what it read and this tile's partial sum. The pieces the output's buffer ends with are the witness. -/
import proofs.«156140_j33363305955887_2_alg».proof.Proof.K.Region1Runs

-- membership in a rectangle of production extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

-- (the run's proof term is large: the definition's epilogue walks it past the default budget)
set_option maxHeartbeats 1000000 in
/-- What the body's stores leave in the output's staging memref, as pieces (last first), at the first point
    (the conditional taken), with the proof that on whole staging memrefs — the inputs' at their contents, the
    output's at anything — the body runs to the continuation holding the inputs' as they were and the output's
    buffer with its pieces written. -/
noncomputable def kernelRun1_A (c : Dev nD) (i : grid1.Coords) (arg2 : Memref sig .tc .vmem S2x768 .f32) (harg2 : arg2.IsWhole)
    (arg3 : Memref sig .tc .vmem S2x768 .f32) (harg3 : arg3.IsWhole) (arg4 : Memref sig .tc .vmem S1x1 .f32) (harg4 : arg4.IsWhole) (hc0 : cond1_0 i)
    (x0 : Vec F S2x768 .f32) (x1 : Vec F S2x768 .f32) :
    { L2 : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)) -∗ K ⟨⟩))
          ⊢ wp frame (wpE (defs₀ (F := F)) Variants.none c none) E (cc1__kernel_push i arg2 harg2 arg3 harg3 arg4 harg4) K } := by
  refine ⟨?_, fun E K => ?run⟩
  case run =>
    simp only [cc1__kernel_push_eq_skeleton]; unfold cc1__kernel_push_skel
    simp only [k1_part1_eq_skeleton]
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Hand

end
-- ==== Proof.K.Region1RunB.lean ====
/- Region 1, the body's run at a grid point other than the first (the conditional not taken): the body loads its
   two input blocks whole, loads the output block at its running contents and stores their sum with this tile's
   partial sum. The pieces the output's buffer ends with are the witness. -/
import proofs.«156140_j33363305955887_2_alg».proof.Proof.K.Region1RunA

-- membership in a rectangle of production extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

-- (the run's proof term is large: the definition's epilogue walks it past the default budget)
set_option maxHeartbeats 1000000 in
/-- What the body's store leaves in the output's staging memref, as pieces, at a point other than the first
    (the conditional not taken), with the proof that on whole staging memrefs — the inputs' at their contents, the
    output's at its running contents `xo2` — the body runs to the continuation holding the inputs' as they were and
    the output's buffer with its pieces written. -/
noncomputable def kernelRun1_B (c : Dev nD) (i : grid1.Coords) (arg2 : Memref sig .tc .vmem S2x768 .f32) (harg2 : arg2.IsWhole)
    (arg3 : Memref sig .tc .vmem S2x768 .f32) (harg3 : arg3.IsWhole) (arg4 : Memref sig .tc .vmem S1x1 .f32) (harg4 : arg4.IsWhole) (hc0 : ¬cond1_0 i)
    (x0 : Vec F S2x768 .f32) (x1 : Vec F S2x768 .f32) (xo2 : Vec F S1x1 .f32) :
    { L2 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)) -∗ K ⟨⟩))
          ⊢ wp frame (wpE (defs₀ (F := F)) Variants.none c none) E (cc1__kernel_push i arg2 harg2 arg3 harg3 arg4 harg4) K } := by
  refine ⟨?_, fun E K => ?run⟩
  case run =>
    simp only [cc1__kernel_push_eq_skeleton]; unfold cc1__kernel_push_skel
    simp only [k1_part1_eq_skeleton]
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Hand

end
-- ==== Proof.K.Region1.lean ====
/- Region 1 (the second pallas_call: a 12 × 12 grid whose two input windows are blocks of one array and whose
   1 × 1 output block is an accumulator carried in the output window, zeroed at the first point and written back
   after the last): what the output's staging buffer holds per case and point by point, the pipeline's proof data
   at the region-entry contents `V`, and the body obligation at every point. -/
import proofs.«156140_j33363305955887_2_alg».proof.Proof.K.Region1RunB
import Idealize.ShloMosaic.Lib.Pipeline.Value

-- membership in a rectangle of production extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What the body leaves in the output's staging buffer, per case -/

/-- At the first point the body's pieces for the output tile its block, so they cover it. -/
theorem cover1_A_2 (c : Dev nD) (i : grid1.Coords) (arg2 : Memref sig .tc .vmem S2x768 .f32) (harg2 : arg2.IsWhole)
    (arg3 : Memref sig .tc .vmem S2x768 .f32) (harg3 : arg3.IsWhole) (arg4 : Memref sig .tc .vmem S1x1 .f32) (harg4 : arg4.IsWhole) (hc0 : cond1_0 i)
    (x0 : Vec F S2x768 .f32) (x1 : Vec F S2x768 .f32) (y : S1x1.Idx) :
    ∃ pc ∈ (kernelRun1_A c i arg2 harg2 arg3 harg3 arg4 harg4 hc0 x0 x1).1, y ∈ pc.1.set :=
  View.cover_of_tiledL (kernelRun1_A c i arg2 harg2 arg3 harg3 arg4 harg4 hc0 x0 x1).1 S1x1.size (by sl_kernel_rfl) y

/-- What the first point leaves in the output's staging buffer: its pieces read back over junk. -/
def out1_A_2 (c : Dev nD) (i : grid1.Coords) (arg2 : Memref sig .tc .vmem S2x768 .f32) (harg2 : arg2.IsWhole)
    (arg3 : Memref sig .tc .vmem S2x768 .f32) (harg3 : arg3.IsWhole) (arg4 : Memref sig .tc .vmem S1x1 .f32) (harg4 : arg4.IsWhole) (hc0 : cond1_0 i)
    (x0 : Vec F S2x768 .f32) (x1 : Vec F S2x768 .f32) : Vec F S1x1 .f32 :=
  VO1_2.read (Elt F) (VO1_2.writes (Elt F) VO1_2.junk (kernelRun1_A c i arg2 harg2 arg3 harg3 arg4 harg4 hc0 x0 x1).1)

/-- At a later point the body's one piece for the output tiles its block, so it covers it. -/
theorem cover1_B_2 (c : Dev nD) (i : grid1.Coords) (arg2 : Memref sig .tc .vmem S2x768 .f32) (harg2 : arg2.IsWhole)
    (arg3 : Memref sig .tc .vmem S2x768 .f32) (harg3 : arg3.IsWhole) (arg4 : Memref sig .tc .vmem S1x1 .f32) (harg4 : arg4.IsWhole) (hc0 : ¬cond1_0 i)
    (x0 : Vec F S2x768 .f32) (x1 : Vec F S2x768 .f32) (xo2 : Vec F S1x1 .f32) (y : S1x1.Idx) :
    ∃ pc ∈ (kernelRun1_B c i arg2 harg2 arg3 harg3 arg4 harg4 hc0 x0 x1 xo2).1, y ∈ pc.1.set :=
  View.cover_of_tiledL (kernelRun1_B c i arg2 harg2 arg3 harg3 arg4 harg4 hc0 x0 x1 xo2).1 S1x1.size (by sl_kernel_rfl) y

/-- What a later point leaves in the output's staging buffer: its piece read back over junk. -/
def out1_B_2 (c : Dev nD) (i : grid1.Coords) (arg2 : Memref sig .tc .vmem S2x768 .f32) (harg2 : arg2.IsWhole)
    (arg3 : Memref sig .tc .vmem S2x768 .f32) (harg3 : arg3.IsWhole) (arg4 : Memref sig .tc .vmem S1x1 .f32) (harg4 : arg4.IsWhole) (hc0 : ¬cond1_0 i)
    (x0 : Vec F S2x768 .f32) (x1 : Vec F S2x768 .f32) (xo2 : Vec F S1x1 .f32) : Vec F S1x1 .f32 :=
  VO1_2.read (Elt F) (VO1_2.writes (Elt F) VO1_2.junk (kernelRun1_B c i arg2 harg2 arg3 harg3 arg4 harg4 hc0 x0 x1 xo2).1)

/-! ## What the output holds after each point -/

/-- No point after the first has both coordinates zero: the grid has 144 points. -/
theorem not_cond1_succ (n : ℕ) (hn : n + 1 < cfg1.N) : ¬cond1_0 (grid1.coords ⟨n + 1, hn⟩) := fun h => by
  have h1 := (hcond1_0 ⟨n + 1, hn⟩).mp h
  have h2 : n + 1 < 144 := lt_of_lt_of_eq hn (show cfg1.N = 144 from N_1)
  dsimp only at h1
  omega

/-- THE ACCUMULATION. What the output's staging buffer holds after the body at position `n`: at the first point what
    the zeroing case leaves, at a later one what the adding case leaves over the contents the point before left (the
    buffer is not written back between). -/
def outsAt1 (c : Dev nD) : (n : ℕ) → n < cfg1.N → Vec F S1x1 .f32
  | 0, hn => out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩)
      ((hcond1_0 ⟨0, hn⟩).mpr (Nat.zero_mod _)) (iblk1 V c 0 ⟨0, hn⟩) (iblk1 V c 1 ⟨0, hn⟩)
  | n + 1, hn => out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩)
      (not_cond1_succ n hn) (iblk1 V c 0 ⟨n + 1, hn⟩) (iblk1 V c 1 ⟨n + 1, hn⟩) (outsAt1 c n (Nat.lt_of_succ_lt hn))

/-- `outsAt1` at the first point: the zeroing case's contents. -/
theorem outsAt1_A (c : Dev nD) (t : Fin cfg1.N) (h0 : t.val % 144 = 0) :
    outsAt1 V c t.val t.isLt = out1_A_2 c (grid1.coords t) (ms1_0 t) (hs1_0 t) (ms1_1 t) (hs1_1 t) (ms1_2 t) (hs1_2 t) ((hcond1_0 t).mpr h0) (iblk1 V c 0 t) (iblk1 V c 1 t) := by
  obtain ⟨n, hn⟩ := t
  cases n with
  | zero => exact rfl
  | succ n =>
    exfalso
    have h2 : n + 1 < 144 := lt_of_lt_of_eq hn (show cfg1.N = 144 from N_1)
    dsimp only at h0
    omega

/-- `outsAt1` at a later point: the adding case's contents, over what the point before left. -/
theorem outsAt1_B (c : Dev nD) (t : Fin cfg1.N) (h0 : ¬t.val % 144 = 0) :
    outsAt1 V c t.val t.isLt = out1_B_2 c (grid1.coords t) (ms1_0 t) (hs1_0 t) (ms1_1 t) (hs1_1 t) (ms1_2 t) (hs1_2 t) (fun h => h0 ((hcond1_0 t).mp h)) (iblk1 V c 0 t) (iblk1 V c 1 t)
      (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact rfl

/-! ## The accumulation as values: the pieces read back -/

/-- The zero offsets, however spelt. -/
theorem hz2 : (![0, 0] : Fin 2 → Nat) = fun _ => 0 := funext fun a => by fin_cases a <;> rfl

/-- A later point's value: the body leaves, in the output's buffer holding `xo2`, its one covering store's payload — of
    the two input blocks and `xo2`, each read whole. -/
theorem out1_B_2_eq (c : Dev nD) (i : grid1.Coords) (arg2 : Memref sig .tc .vmem S2x768 .f32) (harg2 : arg2.IsWhole)
    (arg3 : Memref sig .tc .vmem S2x768 .f32) (harg3 : arg3.IsWhole) (arg4 : Memref sig .tc .vmem S1x1 .f32) (harg4 : arg4.IsWhole) (hc0 : ¬cond1_0 i)
    (x0 : Vec F S2x768 .f32) (x1 : Vec F S2x768 .f32) (xo2 : Vec F S1x1 .f32) :
    out1_B_2 c i arg2 harg2 arg3 harg3 arg4 harg4 hc0 x0 x1 xo2 = k1_pay2 x0 x1 xo2 := by
  unfold out1_B_2
  rw [View.read_writes_eq_canon _ _ _ (cover1_B_2 c i arg2 harg2 arg3 harg3 arg4 harg4 hc0 x0 x1 xo2)]
  unfold kernelRun1_B
  dsimp only
  rw [View.canon_unit_zero hz2]
  sl_unfold_words
  simp only [View.readAt_eq_ld, harg2.read_unread, harg3.read_unread, harg4.read_unread, View.ld_unit_zero (S := S2x768) hz2, View.ld_unit_zero (S := S1x1) hz2]

/-- The first point's value: the body stores the zero block, reads it back, and leaves its last store's payload — of the
    two input blocks, each read whole, and the zero block. -/
theorem out1_A_2_eq (c : Dev nD) (i : grid1.Coords) (arg2 : Memref sig .tc .vmem S2x768 .f32) (harg2 : arg2.IsWhole)
    (arg3 : Memref sig .tc .vmem S2x768 .f32) (harg3 : arg3.IsWhole) (arg4 : Memref sig .tc .vmem S1x1 .f32) (harg4 : arg4.IsWhole) (hc0 : cond1_0 i)
    (x0 : Vec F S2x768 .f32) (x1 : Vec F S2x768 .f32) :
    out1_A_2 c i arg2 harg2 arg3 harg3 arg4 harg4 hc0 x0 x1 = k1_pay2 x0 x1 (k1_pay1 (F := F)) := by
  unfold out1_A_2
  rw [View.read_writes_eq_canon _ _ _ (cover1_A_2 c i arg2 harg2 arg3 harg3 arg4 harg4 hc0 x0 x1)]
  unfold kernelRun1_A
  dsimp only
  sl_unfold_words
  rw [View.canon_cons_unit_zero (S := S1x1) hz2, View.readCov_unit_zero (S := S1x1) _ hz2]
  simp only [View.readAt_eq_ld, harg2.read_unread, harg3.read_unread, View.ld_unit_zero (S := S2x768) hz2]

/-- After the first point the output holds the last store's payload: of the first point's two input blocks and the
    zero block the body had just stored and read back. -/
theorem outsAt1_zero (c : Dev nD) (h : 0 < cfg1.N) :
    outsAt1 V c 0 h = k1_pay2 (iblk1 V c 0 ⟨0, h⟩) (iblk1 V c 1 ⟨0, h⟩) (k1_pay1 (F := F)) :=
  (outsAt1_A V c ⟨0, h⟩ (Nat.zero_mod _)).trans (out1_A_2_eq ..)

/-- After a later point the output holds the store's payload: of that point's two input blocks and what the point
    before left. -/
theorem outsAt1_succ (c : Dev nD) (n : ℕ) (h : n + 1 < cfg1.N) :
    outsAt1 V c (n + 1) h = k1_pay2 (iblk1 V c 0 ⟨n + 1, h⟩) (iblk1 V c 1 ⟨n + 1, h⟩) (outsAt1 V c n (Nat.lt_of_succ_lt h)) := by
  have hN : n + 1 < 144 := lt_of_lt_of_eq h (show cfg1.N = 144 from N_1)
  have hB : ¬(⟨n + 1, h⟩ : Fin cfg1.N).val % 144 = 0 := by dsimp only; omega
  rw [outsAt1_B V c ⟨n + 1, h⟩ hB, out1_B_2_eq]
  rfl

/-! ## The pipeline's proof data -/

/-- The proof data of the pipeline on core `c`: the arrays as the region finds them (`V`); after the body at point
    `t` each input's buffer at its block and the output's at `outsAt1`; the invariant the scoped rest and the generator
    register; nothing owed; the two input windows stage one array, each holding one half of it, the output's array
    held outright. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt)
  Φ _ := Pipeline.ΦA spec1 c
  q w := match w with
    | ⟨0, _⟩ => fullShare.left
    | ⟨1, _⟩ => fullShare.right
    | ⟨2, _⟩ => fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
/-- At a point after the first the output's staging buffer holds what the body left at the point before: the buffer is
    written back after the last point only, the window is live and uncut. -/
theorem before1_2_B (c : Dev nD) (t : Fin cfg1.N) (h0 : ¬t.val % 144 = 0) (d) :
    (dat1 V c).before 2 t d = (outsAt1 V c (t.val - 1) (Nat.lt_of_le_of_lt (Nat.sub_le _ _) t.isLt)) := by
  have hN : t.val < 144 := lt_of_lt_of_eq t.isLt (show cfg1.N = 144 from N_1)
  rw [Dat.before_out_kept _ 2 rfl t (by omega) (Bool.eq_false_iff.mpr fun h => by have := (flush1_2 _).mp h; dsimp only at this; omega)
    (fun _ => rfl) (fun _ _ => rfl)]
  dsimp only [dat1]

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 800000 in
/-- The body at any point: the inputs' memrefs hold their blocks; the closed form says which case the point is in; at a
    later point the output holds what the point before left; so the case's run applies; the invariant passes through
    unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  have hN : t.val < 144 := lt_of_lt_of_eq t.isLt (show cfg1.N = 144 from N_1)
  by_cases h0 : t.val % 144 = 0
  · rw [outsAt1_A V c t h0]
    unfold out1_A_2
    iintro ⟨HΦ, Ho, ⟨%d0, H0⟩, ⟨%d1, H1⟩, ⟨%d2, H2⟩⟩
    iapply ((kernelRun1_A c (grid1.coords t) _ _ _ _ _ _ ((hcond1_0 t).mpr h0) (iblk1 V c 0 t) (iblk1 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover1_A_2 c _ _ _ _ _ _ _ _ _ _)
  · rw [outsAt1_B V c t h0]
    simp only [before1_2_B V c t h0]
    unfold out1_B_2
    iintro ⟨HΦ, Ho, ⟨%d0, H0⟩, ⟨%d1, H1⟩, ⟨%d2, H2⟩⟩
    iapply ((kernelRun1_B c (grid1.coords t) _ _ _ _ _ _ (fun h => h0 ((hcond1_0 t).mp h)) (iblk1 V c 0 t) (iblk1 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover1_B_2 c _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- info: 'Cert.Kernel.Hand.body_obligation1' depends on axioms: [propext, Classical.choice, Quot.sound] -/
#guard_msgs in #print axioms body_obligation1

end Cert.Kernel.Hand

end
-- ==== Proof.K.Shared1.lean ====
import proofs.«156140_j33363305955887_2_alg».proof.Proof.K.Region1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A whole array's view covers every element. -/
theorem set_v1 : (View.whole main_v1 : View sig .tc _ _ _).set = Finset.univ := (Memref.isWhole_whole main_v1).set_eq_univ
theorem set_v2 : (View.whole main_v2 : View sig .tc _ _ _).set = Finset.univ := (Memref.isWhole_whole main_v2).set_eq_univ

/-- Entering the second call. Its first two windows read ONE array (the flattened tags), so of the core's unscoped
    buffers that array's buffer is split into the two halves the windows hold; the result's buffer goes whole to the
    third window; every other buffer bypasses the call. -/
theorem arrays1_of_bufs (c : Dev nD) :
    (unscopedBufs c (V c) : sProp 𝕄)
      ⊢ iprop((dat1 V c).arrays ((dat1 V c).arrAt · 0) ∗ Pipeline.unscopedRest (Ix := Unit) (Name := ℕ) (U := UR sig nD τ) (Lvl := ℕ) spec1 c (V c)) := by
  rw [Pipeline.unscopedBufs_split₀ cfgs (1 : Fin 2) winFacts₀1.arr_unscoped c (V c)]
  refine sep_mono ?_ .rfl
  unfold Pipeline.arrBufs Dat.arrays
  rw [bigSep_eq_bigSepL_of_eq [main_v1, main_v2] (by decide) (by decide), bigSep_W1]
  simp only [bigSepL_cons_cons]
  rw [set_v1, set_v2]
  show (iprop((c.tc.loc main_v1 ↦{fullShare} V c main_v1) ∗ (c.tc.loc main_v2 ↦{fullShare} V c main_v2)) : sProp 𝕄)
    ⊢ iprop((c.tc.loc main_v1 ↦{fullShare.left} V c main_v1) ∗ (c.tc.loc main_v1 ↦{fullShare.right} V c main_v1) ∗ (c.tc.loc main_v2 ↦{fullShare} V c main_v2))
  iintro ⟨⟨H1, H2⟩, H3⟩
  isplitl [H1]; · iexact H1
  isplitl [H2]; · iexact H2
  iexact H3

/-- Leaving it. An input array is never written, so the two halves rejoin at the contents they were split at; the
    result's buffer comes back at what the write-backs left; the rest is as it was: the core's unscoped buffers at
    any contents `V'` that has the result there and agrees with `V` elsewhere. -/
theorem bufs_of_arrays1 (V' : (c : Dev nD) → (b : Ref sig .tc) → Buf (Elt F) ((c : Thread nD τ).loc b)) (c : Dev nD)
    (h2 : V' c main_v2 = (dat1 V c).arrAt 2 cfg1.N) (hrest : ∀ b, b ≠ main_v2 → V' c b = V c b) :
    iprop((dat1 V c).arrays ((dat1 V c).arrAt · cfg1.N) ∗ Pipeline.unscopedRest (Ix := Unit) (Name := ℕ) (U := UR sig nD τ) (Lvl := ℕ) spec1 c (V c))
      ⊢ (unscopedBufs c (V' c) : sProp 𝕄) := by
  rw [Pipeline.unscopedBufs_split₀ cfgs (1 : Fin 2) winFacts₀1.arr_unscoped c (V' c)]
  refine sep_mono ?_ (Entails.of_eq ?_)
  · unfold Pipeline.arrBufs Dat.arrays
    rw [bigSep_eq_bigSepL_of_eq [main_v1, main_v2] (by decide) (by decide), bigSep_W1]
    simp only [bigSepL_cons_cons]
    rw [set_v1, set_v2, (dat1 V c).arrAt_in 0 rfl, (dat1 V c).arrAt_in 1 rfl]
    show (iprop((c.tc.loc main_v1 ↦{fullShare.left} V c main_v1) ∗ (c.tc.loc main_v1 ↦{fullShare.right} V c main_v1)
        ∗ (c.tc.loc main_v2 ↦{fullShare} (dat1 V c).arrAt 2 cfg1.N)) : sProp 𝕄)
      ⊢ iprop((c.tc.loc main_v1 ↦{fullShare} V' c main_v1) ∗ (c.tc.loc main_v2 ↦{fullShare} V' c main_v2))
    rw [hrest main_v1 (by decide), h2]
    iintro ⟨H1, H2, H3⟩
    icombine H1 H2 as H
    isplitl [H]; · iexact H
    iexact H3
  · unfold Pipeline.unscopedRest
    exact bigSep_congr fun b hb => by
      rw [hrest b fun e => (Finset.mem_sdiff.mp hb).2 (e ▸ Finset.mem_image.mpr ⟨2, Finset.mem_univ _, rfl⟩)]

end Cert.Kernel.Hand

end
-- ==== Proof.K.Run.lean ====
import proofs.«156140_j33363305955887_2_alg».proof.Proof.K.Region0
import proofs.«156140_j33363305955887_2_alg».proof.Proof.K.Region1
import proofs.«156140_j33363305955887_2_alg».proof.Proof.K.Shared1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary of the program: the first call, one reshape, the second call, the closing
    scalar arithmetic -/

/-- Core `c`'s buffers at launch: what the first call is entered from. -/
abbrev W0 : Dev nD → Valuation τ sig (Elt F) := fun c b => (s₀ m ρ).mem ((c : Dev nD), b)
abbrev VE0 : (c : Dev nD) → (b : Ref sig .tc) → Buf (Elt F) ((c : Thread nD τ).loc b) := fun c b => W0 m ρ c b
/-- After the first call: its four arrays at what its write-backs leave, every other buffer as before. -/
def W1 (c : Dev nD) : Valuation τ sig (Elt F) :=
  Pipeline.withArrays spec0 c (W0 m ρ c) fun w => (dat0 (VE0 m ρ) c).arrAt w cfg0.N
theorem W1_arr (c : Dev nD) (w : Fin cfg0.W) :
    W1 m ρ c (Proc.devRef .tc (Pipeline.arrRef spec0 w)) = (dat0 (VE0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev VE1 : (c : Dev nD) → (b : Ref sig .tc) → Buf (Elt F) ((c : Thread nD τ).loc b) := fun c b => W1 m ρ c b
theorem hF0 (c : Dev nD) (w : Fin cfg0.W) : (dat0 (VE0 m ρ) c).arrAt w cfg0.N = VE1 m ρ c (Pipeline.arrRef spec0 w) :=
  (W1_arr m ρ c w).symm
theorem hrest0 (c : Dev nD) : ∀ b, b ∉ Finset.univ.image (Pipeline.arrRef spec0) → VE1 m ρ c b = VE0 m ρ c b :=
  fun b hb => W1_of_ne m ρ c b fun w e => hb (Finset.mem_image.mpr ⟨w, Finset.mem_univ _, e⟩)

/-- After the reshape of the averaged tags to [2, 9216]: what the second call is entered from. -/
abbrev W2 : Dev nD → Valuation τ sig (Elt F) := fun c => StableHlo.after hostOps1 (W1 m ρ c)
abbrev VE2 : (c : Dev nD) → (b : Ref sig .tc) → Buf (Elt F) ((c : Thread nD τ).loc b) := fun c b => W2 m ρ c b
/-- After the second call: its one result array at what the last point's write-back leaves; its two input windows
    read one array, which stays as it was. -/
def W3 (c : Dev nD) : Valuation τ sig (Elt F) :=
  Function.update (W2 m ρ c) (Proc.devRef .tc main_v2) ((dat1 (VE2 m ρ) c).arrAt 2 cfg1.N)
abbrev VE3 : (c : Dev nD) → (b : Ref sig .tc) → Buf (Elt F) ((c : Thread nD τ).loc b) := fun c b => W3 m ρ c b
theorem W3_v2 (c : Dev nD) : VE3 m ρ c main_v2 = (dat1 (VE2 m ρ) c).arrAt 2 cfg1.N := by
  show W3 m ρ c (Proc.devRef .tc main_v2) = _
  unfold W3; exact Function.update_self ..
theorem W3_of_ne (c : Dev nD) (b : Ref sig .tc) (hb : b ≠ main_v2) : VE3 m ρ c b = VE2 m ρ c b := by
  show W3 m ρ c (Proc.devRef .tc b) = _
  unfold W3; exact Function.update_of_ne (StableHlo.devRef_ne_of_ne hb) ..
/-- After the closing scalar arithmetic. -/
abbrev W4 : Dev nD → Valuation τ sig (Elt F) := fun c => StableHlo.after hostOps2 (W3 m ρ c)

/-! ## The proof data of both calls and the state between items -/

abbrev admH : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) admH p) c
  | ⟨0, _⟩ => fun c => dat0 (VE0 m ρ) c
  | ⟨1, _⟩ => fun c => dat1 (VE2 m ρ) c
abbrev 𝒱₀ : Variants := Variants.none
abbrev L : GSem nD τ sig → Finset Unit := fun _ => ∅
abbrev lv : GSem nD τ sig → Unit → ℕ := fun _ _ => 0
/-- What rides beside the buffers through every item: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_freshH : (hostOps1 : List (HloOp τ sig (Elt F))).Forall fun op => op.fresh = ∅ := by
  simp only [List.Forall]; repeat' constructor
theorem hostOps2_freshH : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The second call's two input windows read ONE array: its buffer is held in two halves -/

/-- Entering the second call, at this run's contents. -/
theorem entry1 (c : Dev nD) :
    (unscopedBufs c (VE2 m ρ c) : sProp 𝕄)
      ⊢ iprop((pdats m ρ 1 c).arrays ((pdats m ρ 1 c).arrAt · 0) ∗ Pipeline.unscopedRest (Ix := Unit) (Name := ℕ) (U := UR sig nD τ) (Lvl := ℕ) spec1 c (VE2 m ρ c)) :=
  arrays1_of_bufs (VE2 m ρ) c

/-- Leaving it, at this run's contents. -/
theorem exit1 (c : Dev nD) :
    iprop((pdats m ρ 1 c).arrays ((pdats m ρ 1 c).arrAt · cfg1.N) ∗ Pipeline.unscopedRest (Ix := Unit) (Name := ℕ) (U := UR sig nD τ) (Lvl := ℕ) spec1 c (VE2 m ρ c))
      ⊢ (unscopedBufs c (VE3 m ρ c) : sProp 𝕄) :=
  bufs_of_arrays1 (VE2 m ρ) (VE3 m ρ) c (W3_v2 m ρ c) (fun b hb => W3_of_ne m ρ c b hb)

/-! ## The two calls as segments -/

set_option backward.isDefEq.respectTransparency.types false in
def reg0 : Pipeline.RegionSeg (pcfgs (F := F)) admH (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VE0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (VE0 m ρ c)
  hentry c := by
    rw [Pipeline.ownSems0_none]
    have hsplit := Pipeline.arrays_of_unscopedBufs (p := 0) (pcfgs (F := F)) admH (pdats m ρ) launch0.win launch0.arr_whole c
      ((pdats m ρ 0 c).share_full fun _ => rfl) (VE0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m ρ) ((pdats m ρ 0 c).share_full fun _ => rfl)
      (VE0 m ρ c) (VE1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) admH (pdats m ρ) () defs₀ 𝒱₀ L lv 1 where
  win := winFacts₀1
  block_pos := block_pos1
  stage_whole := stage_whole1
  K := PEmpty
  osem k := k.elim
  ho := Pipeline.OwnSemFacts.none _
  hbody c := (body_obligation1 (VE2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (VE2 m ρ c)
  hentry c := by
    rw [Pipeline.ownSems0_none]
    have hsplit := entry1 m ρ c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 m ρ c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and its run -/

abbrev segs : List (Pipeline.Seg (pcfgs (F := F)) admH (pdats m ρ) () defs₀ 𝒱₀ L lv) :=
  [ .region (reg0 m ρ),
    .host (hseg hostOps1 hostOps1_sub hostOps1_freshH (W1 m ρ)),
    .region (reg1 m ρ),
    .host (hseg hostOps2 hostOps2_sub hostOps2_freshH (W3 m ρ)) ]
theorem main_run (c : Dev nD) : main (F := F) c = Pipeline.Seg.run (segs m ρ) := (main_chain c).trans (by chain_rfl)

set_option backward.isDefEq.respectTransparency.types false in
/-- From any memory with zero counters every weakly fair execution of the program terminates, nothing faulting,
    and the final memory holds every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) admH (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show (iprop(StableHlo.held (c : Thread nD τ) (Pipeline.ucRefs τ sig) (W4 m ρ c) ∗ R c) : sProp 𝕄) ⊢ _
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.Kernel.Hand

end
-- ==== Proof.K.RunEnd.lean ====
import proofs.«156140_j33363305955887_2_alg».proof.Proof.K.Run
import proofs.«156140_j33363305955887_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-! ## No item of the program writes an argument array -/

/-- The closing arithmetic writes only its own scalars. -/
theorem W4_of (c : Dev nD) (r : Ref sig .tc) (h : r ∉ hostOps2_W) :
    W4 m ρ c (Proc.devRef .tc r) = W3 m ρ c (Proc.devRef .tc r) :=
  StableHlo.after_of_writes_sub hostOps2 _ hostOps2_writes h
/-- The reshape writes only the flattened tags. -/
theorem W2_of (c : Dev nD) (r : Ref sig .tc) (h : r ∉ hostOps1_W) :
    W2 m ρ c (Proc.devRef .tc r) = W1 m ρ c (Proc.devRef .tc r) :=
  StableHlo.after_of_writes_sub hostOps1 _ hostOps1_writes h

/-- The prediction array reaches the end as launched: the first call reads it through an input window, nothing else
    touches it. -/
theorem W4_main_arg0 (c : Dev nD) : W4 m ρ c (Proc.devRef .tc main_arg0) = m ((c : Thread nD τ).loc main_arg0) :=
  (W4_of m ρ c main_arg0 (by decide)).trans <| (W3_of_ne m ρ c main_arg0 (by decide)).trans <|
    (W2_of m ρ c main_arg0 (by decide)).trans <| (W1_arr m ρ c 0).trans <|
      ((dat0 (VE0 m ρ) c).arrAt_in 0 rfl _).trans ((A_eq0 (VE0 m ρ) c 0).trans rfl)
/-- The label array likewise. -/
theorem W4_main_arg1 (c : Dev nD) : W4 m ρ c (Proc.devRef .tc main_arg1) = m ((c : Thread nD τ).loc main_arg1) :=
  (W4_of m ρ c main_arg1 (by decide)).trans <| (W3_of_ne m ρ c main_arg1 (by decide)).trans <|
    (W2_of m ρ c main_arg1 (by decide)).trans <| (W1_arr m ρ c 1).trans <|
      ((dat0 (VE0 m ρ) c).arrAt_in 1 rfl _).trans ((A_eq0 (VE0 m ρ) c 1).trans rfl)

/-- The frame: every weakly fair execution terminates, nothing faulting, and both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W4_main_arg0 m ρ c),
     (h c _ (mem_uc main_arg1 (by decide))).trans (W4_main_arg1 m ρ c)⟩) (run_main m ρ)

end Cert.Kernel.Hand

end
-- ==== Proof.KI.Region0.lean ====
/- The body obligation of pallas_call 0 (`cc0__kernel_elementwise`, a grid of one point), at a parameter `V`: the
   TensorCore's buffer contents when the region is entered. The body loads its two input windows whole, computes, and
   stores each of its two output windows whole (after a load of each whose value is not used), so each output's staging
   buffer after the body is ONE whole-block store's payload of the two input blocks: `out0_2`, `out0_3` and their closed
   forms `out0_2_eq`, `out0_3_eq`; the body's triple `sound_kernel0`; the pipeline's proof data `dat0`; and the
   library's body obligation `body_obligation0`. Every statement is at any float model `F`. -/
import proofs.«156140_j33363305955887_2_alg».proof.Proof.Gen.KernelIdeal.Launch
import proofs.«156140_j33363305955887_2_alg».proof.Proof.Gen.KernelIdeal.Skeleton
import proofs.«156140_j33363305955887_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same of input window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each staging buffer through its whole rectangle -/

abbrev r0_0 : Rect S2x4x96x96 := Rect.unit (s := S2x4x96x96) ![0, 0, 0, 0] S2x4x96x96.size inb_S2x4x96x96_S2x4x96x96_0_0_0_0
abbrev r0_1 : Rect S2x2x96x96 := Rect.unit (s := S2x2x96x96) ![0, 0, 0, 0] S2x2x96x96.size inb_S2x2x96x96_S2x2x96x96_0_0_0_0
abbrev r0_2 : Rect S1x4 := Rect.unit (s := S1x4) ![0, 0] S1x4.size inb_S1x4_S1x4_0_0
abbrev r0_3 : Rect S2x1x96x96 := Rect.unit (s := S2x1x96x96) ![0, 0, 0, 0] S2x1x96x96.size inb_S2x1x96x96_S2x1x96x96_0_0_0_0

/-- The offsets of those rectangles are zero on every axis. -/
theorem zeroOff0_2 : (![0, 0] : Fin 2 → Nat) = fun _ => 0 := funext fun a => by fin_cases a <;> rfl
theorem zeroOff0_4 : (![0, 0, 0, 0] : Fin 4 → Nat) = fun _ => 0 := funext fun a => by fin_cases a <;> rfl

/-! ## What the body leaves in each output window's buffer -/

/-- Window 2's staging buffer after the body, from the input windows' blocks: its one store as a piece. -/
def out0_2 (x0 : Vec F S2x4x96x96 .f32) (x1 : Vec F S2x2x96x96 .f32) : Vec F S1x4 .f32 :=
  View.canon [⟨r0_2, k0_pay2 (k0_pay3 (View.ld x1 r0_1)) (k0_pay5 (View.ld x0 r0_0) (View.ld x1 r0_1))
    (k0_pay7 (View.ld x0 r0_0) (View.ld x1 r0_1)) (k0_pay8 (View.ld x0 r0_0) (View.ld x1 r0_1))⟩]

/-- Window 3's staging buffer after the body, likewise. -/
def out0_3 (x0 : Vec F S2x4x96x96 .f32) (x1 : Vec F S2x2x96x96 .f32) : Vec F S2x1x96x96 .f32 :=
  View.canon [⟨r0_3, k0_pay1 (k0_pay3 (View.ld x1 r0_1)) (k0_pay7 (View.ld x0 r0_0) (View.ld x1 r0_1))⟩]

/-- One store through the whole rectangle leaves its payload, and a load through the whole rectangle reads the
    contents: window 2 ends holding the payload of the two blocks. -/
theorem out0_2_eq (x0 : Vec F S2x4x96x96 .f32) (x1 : Vec F S2x2x96x96 .f32) :
    out0_2 x0 x1 = k0_pay2 (k0_pay3 x1) (k0_pay5 x0 x1) (k0_pay7 x0 x1) (k0_pay8 x0 x1) := by
  unfold out0_2
  rw [View.canon_unit_zero zeroOff0_2]
  simp only [View.ld_unit_zero (S := S2x4x96x96) zeroOff0_4, View.ld_unit_zero (S := S2x2x96x96) zeroOff0_4]

/-- And window 3. -/
theorem out0_3_eq (x0 : Vec F S2x4x96x96 .f32) (x1 : Vec F S2x2x96x96 .f32) :
    out0_3 x0 x1 = k0_pay1 (k0_pay3 x1) (k0_pay7 x0 x1) := by
  unfold out0_3
  rw [View.canon_unit_zero zeroOff0_4]
  simp only [View.ld_unit_zero (S := S2x4x96x96) zeroOff0_4, View.ld_unit_zero (S := S2x2x96x96) zeroOff0_4]

/-- Each output's one store covers its buffer: every index is in the whole rectangle. -/
theorem cover0_2 (p0 : Vec F S1x4 .f32) (y : S1x4.Idx) :
    ∃ pc ∈ ([⟨r0_2, p0⟩] : List (View.Piece (Elt F) S1x4 .f32)), y ∈ pc.1.set :=
  ⟨_, List.mem_singleton_self _, View.mem_set_unit_zero zeroOff0_2 inb_S1x4_S1x4_0_0 y⟩

theorem cover0_3 (p0 : Vec F S2x1x96x96 .f32) (y : S2x1x96x96.Idx) :
    ∃ pc ∈ ([⟨r0_3, p0⟩] : List (View.Piece (Elt F) S2x1x96x96 .f32)), y ∈ pc.1.set :=
  ⟨_, List.mem_singleton_self _, View.mem_set_unit_zero zeroOff0_4 inb_S2x1x96x96_S2x1x96x96_0_0_0_0 y⟩

/-! ## The body's triple -/

set_option maxHeartbeats 1000000 in
/-- The kernel body on whole staging memrefs, the inputs' at read contents `x0`, `x1` and the outputs' at anything, runs
    to the continuation holding the inputs' as they were and each output's at `out0_W` of the inputs'. -/
theorem sound_kernel0 (c : Dev nD) (E : Set ℕ) (i : grid0.Coords)
    (arg1 : Memref sig .tc .vmem S2x4x96x96 .f32) (harg1 : arg1.IsWhole) (arg2 : Memref sig .tc .vmem S2x2x96x96 .f32) (harg2 : arg2.IsWhole)
    (arg3 : Memref sig .tc .vmem S1x4 .f32) (harg3 : arg3.IsWhole) (arg4 : Memref sig .tc .vmem S2x1x96x96 .f32) (harg4 : arg4.IsWhole)
    (x0 : Vec F S2x4x96x96 .f32) (x1 : Vec F S2x2x96x96 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (out0_2 x0 x1) ∗ owns (c : Thread nD τ) arg4 fullShare (out0_3 x0 x1)) -∗ K ⟨⟩))
      ⊢ wp frame (wpE (defs₀ (F := F)) Variants.none c none) E (cc0__kernel_elementwise i arg1 harg1 arg2 harg2 arg3 harg3 arg4 harg4) K := by
  simp only [cc0__kernel_elementwise_eq_skeleton]; unfold cc0__kernel_elementwise_skel
  simp only [k0_part1_eq_skeleton]; unfold k0_part1_skel
  unfold owns
  iintro ⟨⟨%f0, %hf0, H0⟩, ⟨%f1, %hf1, H1⟩, ⟨%d2, %f2, -, H2⟩, ⟨%d3, %f3, -, H3⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_2 _)
  iexists _; isplitr
  swap; · iexact H3
  ipureintro
  exact View.read_writes_eq_canon _ _ _ (cover0_3 _)

/-! ## The pipeline's proof data -/

/-- The proof data of pipeline 0 on core `c`: the arrays as the region finds them (`V`); after the body at point `t`
    each input's buffer at its block and each output's at `out0_W` of the two input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.Region1Runs.lean ====
/- Region 1 (the second pallas_call, a 12 × 12 grid accumulating into a 1 × 1 output block): what the
   case runs of its body share — each window's block at a point, the two input windows' staging buffers
   holding their blocks at every point, the body's branch condition in closed form, and the staging
   memrefs as the pipeline passes them. -/
import proofs.«156140_j33363305955887_2_alg».proof.Proof.Gen.KernelIdeal.Launch
import proofs.«156140_j33363305955887_2_alg».proof.Proof.Gen.KernelIdeal.Skeleton
import proofs.«156140_j33363305955887_2_alg».proof.Proof.Gen.KernelIdeal.Points
import Idealize.ShloMosaic.Lib.Pipeline.FrameBody
import Idealize.ShloMosaic.Lib.Ring
import Idealize.ShloMosaic.Lib.Tactic

-- membership in a rectangle of production extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (its block
    index moves every 12 points; unfetched, the index has not moved and the body left the block in place), for any
    proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point (it is fetched at every point). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch condition -/

/-- The condition of the body's conditional: both grid coordinates are zero (the scalar chain of the body substituted). -/
abbrev cond1_0 (i : grid1.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — decided over the grid. -/
theorem hcond1_0 : ∀ t : Fin cfg1.N, cond1_0 (grid1.coords t) ↔ t.val % 144 = 0 :=
  (by decide +kernel : ∀ t : Fin grid1.N, cond1_0 (grid1.coords t) ↔ t.val % 144 = 0)

/-! ## The staging memrefs -/

/-- The staging buffer of output window 2, through which its contents are stated. -/
abbrev VO1_2 : View sig .tc .vmem S1x1 .f32 := (Memref.whole cc1_stg2_0 : Memref sig .tc .vmem S1x1 .f32).view
/-- Each window's current staging memref at point `t`, spelled as the pipeline passes it, and its wholeness. -/
abbrev ms1_0 (t : Fin cfg1.N) : Memref sig .tc .vmem S2x768 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2x768 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1 .f32 := win1_2.stage (cfg1.slots t 2)
abbrev hs1_2 (t : Fin cfg1.N) : (ms1_2 t).IsWhole := hstage1_2 ((cfg1.slots t 2).cast nbuf1_2)

end Cert.KernelIdeal.Hand

end
-- ==== Proof.KI.Region1RunA.lean ====
/- Region 1, the body's run at the first grid point (both coordinates zero, the conditional taken): the body
   stores zeros into the output block, loads its two input blocks whole, loads the output block back and stores
   the sum of what it read and this tile's partial sum. The pieces the output's buffer ends with are the witness. -/
import proofs.«156140_j33363305955887_2_alg».proof.Proof.KI.Region1Runs

-- membership in a rectangle of production extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

-- (the run's proof term is large: the definition's epilogue walks it past the default budget)
set_option maxHeartbeats 1000000 in
/-- What the body's stores leave in the output's staging memref, as pieces (last first), at the first point
    (the conditional taken), with the proof that on whole staging memrefs — the inputs' at their contents, the
    output's at anything — the body runs to the continuation holding the inputs' as they were and the output's
    buffer with its pieces written. -/
noncomputable def kernelRun1_A (c : Dev nD) (i : grid1.Coords) (arg2 : Memref sig .tc .vmem S2x768 .f32) (harg2 : arg2.IsWhole)
    (arg3 : Memref sig .tc .vmem S2x768 .f32) (harg3 : arg3.IsWhole) (arg4 : Memref sig .tc .vmem S1x1 .f32) (harg4 : arg4.IsWhole) (hc0 : cond1_0 i)
    (x0 : Vec F S2x768 .f32) (x1 : Vec F S2x768 .f32) :
    { L2 : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)) -∗ K ⟨⟩))
          ⊢ wp frame (wpE (defs₀ (F := F)) Variants.none c none) E (cc1__kernel_push i arg2 harg2 arg3 harg3 arg4 harg4) K } := by
  refine ⟨?_, fun E K => ?run⟩
  case run =>
    simp only [cc1__kernel_push_eq_skeleton]; unfold cc1__kernel_push_skel
    simp only [k1_part1_eq_skeleton]
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Hand

end
-- ==== Proof.KI.Region1RunB.lean ====
/- Region 1, the body's run at a grid point other than the first (the conditional not taken): the body loads its
   two input blocks whole, loads the output block at its running contents and stores their sum with this tile's
   partial sum. The pieces the output's buffer ends with are the witness. -/
import proofs.«156140_j33363305955887_2_alg».proof.Proof.KI.Region1RunA

-- membership in a rectangle of production extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

-- (the run's proof term is large: the definition's epilogue walks it past the default budget)
set_option maxHeartbeats 1000000 in
/-- What the body's store leaves in the output's staging memref, as pieces, at a point other than the first
    (the conditional not taken), with the proof that on whole staging memrefs — the inputs' at their contents, the
    output's at its running contents `xo2` — the body runs to the continuation holding the inputs' as they were and
    the output's buffer with its pieces written. -/
noncomputable def kernelRun1_B (c : Dev nD) (i : grid1.Coords) (arg2 : Memref sig .tc .vmem S2x768 .f32) (harg2 : arg2.IsWhole)
    (arg3 : Memref sig .tc .vmem S2x768 .f32) (harg3 : arg3.IsWhole) (arg4 : Memref sig .tc .vmem S1x1 .f32) (harg4 : arg4.IsWhole) (hc0 : ¬cond1_0 i)
    (x0 : Vec F S2x768 .f32) (x1 : Vec F S2x768 .f32) (xo2 : Vec F S1x1 .f32) :
    { L2 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)) -∗ K ⟨⟩))
          ⊢ wp frame (wpE (defs₀ (F := F)) Variants.none c none) E (cc1__kernel_push i arg2 harg2 arg3 harg3 arg4 harg4) K } := by
  refine ⟨?_, fun E K => ?run⟩
  case run =>
    simp only [cc1__kernel_push_eq_skeleton]; unfold cc1__kernel_push_skel
    simp only [k1_part1_eq_skeleton]
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Hand

end
-- ==== Proof.KI.Region1.lean ====
/- Region 1 (the second pallas_call: a 12 × 12 grid whose two input windows are blocks of one array and whose
   1 × 1 output block is an accumulator carried in the output window, zeroed at the first point and written back
   after the last): what the output's staging buffer holds per case and point by point, the pipeline's proof data
   at the region-entry contents `V`, and the body obligation at every point. -/
import proofs.«156140_j33363305955887_2_alg».proof.Proof.KI.Region1RunB
import Idealize.ShloMosaic.Lib.Pipeline.Value

-- membership in a rectangle of production extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What the body leaves in the output's staging buffer, per case -/

/-- At the first point the body's pieces for the output tile its block, so they cover it. -/
theorem cover1_A_2 (c : Dev nD) (i : grid1.Coords) (arg2 : Memref sig .tc .vmem S2x768 .f32) (harg2 : arg2.IsWhole)
    (arg3 : Memref sig .tc .vmem S2x768 .f32) (harg3 : arg3.IsWhole) (arg4 : Memref sig .tc .vmem S1x1 .f32) (harg4 : arg4.IsWhole) (hc0 : cond1_0 i)
    (x0 : Vec F S2x768 .f32) (x1 : Vec F S2x768 .f32) (y : S1x1.Idx) :
    ∃ pc ∈ (kernelRun1_A c i arg2 harg2 arg3 harg3 arg4 harg4 hc0 x0 x1).1, y ∈ pc.1.set :=
  View.cover_of_tiledL (kernelRun1_A c i arg2 harg2 arg3 harg3 arg4 harg4 hc0 x0 x1).1 S1x1.size (by sl_kernel_rfl) y

/-- What the first point leaves in the output's staging buffer: its pieces read back over junk. -/
def out1_A_2 (c : Dev nD) (i : grid1.Coords) (arg2 : Memref sig .tc .vmem S2x768 .f32) (harg2 : arg2.IsWhole)
    (arg3 : Memref sig .tc .vmem S2x768 .f32) (harg3 : arg3.IsWhole) (arg4 : Memref sig .tc .vmem S1x1 .f32) (harg4 : arg4.IsWhole) (hc0 : cond1_0 i)
    (x0 : Vec F S2x768 .f32) (x1 : Vec F S2x768 .f32) : Vec F S1x1 .f32 :=
  VO1_2.read (Elt F) (VO1_2.writes (Elt F) VO1_2.junk (kernelRun1_A c i arg2 harg2 arg3 harg3 arg4 harg4 hc0 x0 x1).1)

/-- At a later point the body's one piece for the output tiles its block, so it covers it. -/
theorem cover1_B_2 (c : Dev nD) (i : grid1.Coords) (arg2 : Memref sig .tc .vmem S2x768 .f32) (harg2 : arg2.IsWhole)
    (arg3 : Memref sig .tc .vmem S2x768 .f32) (harg3 : arg3.IsWhole) (arg4 : Memref sig .tc .vmem S1x1 .f32) (harg4 : arg4.IsWhole) (hc0 : ¬cond1_0 i)
    (x0 : Vec F S2x768 .f32) (x1 : Vec F S2x768 .f32) (xo2 : Vec F S1x1 .f32) (y : S1x1.Idx) :
    ∃ pc ∈ (kernelRun1_B c i arg2 harg2 arg3 harg3 arg4 harg4 hc0 x0 x1 xo2).1, y ∈ pc.1.set :=
  View.cover_of_tiledL (kernelRun1_B c i arg2 harg2 arg3 harg3 arg4 harg4 hc0 x0 x1 xo2).1 S1x1.size (by sl_kernel_rfl) y

/-- What a later point leaves in the output's staging buffer: its piece read back over junk. -/
def out1_B_2 (c : Dev nD) (i : grid1.Coords) (arg2 : Memref sig .tc .vmem S2x768 .f32) (harg2 : arg2.IsWhole)
    (arg3 : Memref sig .tc .vmem S2x768 .f32) (harg3 : arg3.IsWhole) (arg4 : Memref sig .tc .vmem S1x1 .f32) (harg4 : arg4.IsWhole) (hc0 : ¬cond1_0 i)
    (x0 : Vec F S2x768 .f32) (x1 : Vec F S2x768 .f32) (xo2 : Vec F S1x1 .f32) : Vec F S1x1 .f32 :=
  VO1_2.read (Elt F) (VO1_2.writes (Elt F) VO1_2.junk (kernelRun1_B c i arg2 harg2 arg3 harg3 arg4 harg4 hc0 x0 x1 xo2).1)

/-! ## What the output holds after each point -/

/-- No point after the first has both coordinates zero: the grid has 144 points. -/
theorem not_cond1_succ (n : ℕ) (hn : n + 1 < cfg1.N) : ¬cond1_0 (grid1.coords ⟨n + 1, hn⟩) := fun h => by
  have h1 := (hcond1_0 ⟨n + 1, hn⟩).mp h
  have h2 : n + 1 < 144 := lt_of_lt_of_eq hn (show cfg1.N = 144 from N_1)
  dsimp only at h1
  omega

/-- THE ACCUMULATION. What the output's staging buffer holds after the body at position `n`: at the first point what
    the zeroing case leaves, at a later one what the adding case leaves over the contents the point before left (the
    buffer is not written back between). -/
def outsAt1 (c : Dev nD) : (n : ℕ) → n < cfg1.N → Vec F S1x1 .f32
  | 0, hn => out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩)
      ((hcond1_0 ⟨0, hn⟩).mpr (Nat.zero_mod _)) (iblk1 V c 0 ⟨0, hn⟩) (iblk1 V c 1 ⟨0, hn⟩)
  | n + 1, hn => out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩)
      (not_cond1_succ n hn) (iblk1 V c 0 ⟨n + 1, hn⟩) (iblk1 V c 1 ⟨n + 1, hn⟩) (outsAt1 c n (Nat.lt_of_succ_lt hn))

/-- `outsAt1` at the first point: the zeroing case's contents. -/
theorem outsAt1_A (c : Dev nD) (t : Fin cfg1.N) (h0 : t.val % 144 = 0) :
    outsAt1 V c t.val t.isLt = out1_A_2 c (grid1.coords t) (ms1_0 t) (hs1_0 t) (ms1_1 t) (hs1_1 t) (ms1_2 t) (hs1_2 t) ((hcond1_0 t).mpr h0) (iblk1 V c 0 t) (iblk1 V c 1 t) := by
  obtain ⟨n, hn⟩ := t
  cases n with
  | zero => exact rfl
  | succ n =>
    exfalso
    have h2 : n + 1 < 144 := lt_of_lt_of_eq hn (show cfg1.N = 144 from N_1)
    dsimp only at h0
    omega

/-- `outsAt1` at a later point: the adding case's contents, over what the point before left. -/
theorem outsAt1_B (c : Dev nD) (t : Fin cfg1.N) (h0 : ¬t.val % 144 = 0) :
    outsAt1 V c t.val t.isLt = out1_B_2 c (grid1.coords t) (ms1_0 t) (hs1_0 t) (ms1_1 t) (hs1_1 t) (ms1_2 t) (hs1_2 t) (fun h => h0 ((hcond1_0 t).mp h)) (iblk1 V c 0 t) (iblk1 V c 1 t)
      (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact rfl

/-! ## The accumulation as values: the pieces read back -/

/-- The zero offsets, however spelt. -/
theorem hz2 : (![0, 0] : Fin 2 → Nat) = fun _ => 0 := funext fun a => by fin_cases a <;> rfl

/-- A later point's value: the body leaves, in the output's buffer holding `xo2`, its one covering store's payload — of
    the two input blocks and `xo2`, each read whole. -/
theorem out1_B_2_eq (c : Dev nD) (i : grid1.Coords) (arg2 : Memref sig .tc .vmem S2x768 .f32) (harg2 : arg2.IsWhole)
    (arg3 : Memref sig .tc .vmem S2x768 .f32) (harg3 : arg3.IsWhole) (arg4 : Memref sig .tc .vmem S1x1 .f32) (harg4 : arg4.IsWhole) (hc0 : ¬cond1_0 i)
    (x0 : Vec F S2x768 .f32) (x1 : Vec F S2x768 .f32) (xo2 : Vec F S1x1 .f32) :
    out1_B_2 c i arg2 harg2 arg3 harg3 arg4 harg4 hc0 x0 x1 xo2 = k1_pay2 x0 x1 xo2 := by
  unfold out1_B_2
  rw [View.read_writes_eq_canon _ _ _ (cover1_B_2 c i arg2 harg2 arg3 harg3 arg4 harg4 hc0 x0 x1 xo2)]
  unfold kernelRun1_B
  dsimp only
  rw [View.canon_unit_zero hz2]
  sl_unfold_words
  simp only [View.readAt_eq_ld, harg2.read_unread, harg3.read_unread, harg4.read_unread, View.ld_unit_zero (S := S2x768) hz2, View.ld_unit_zero (S := S1x1) hz2]

/-- The first point's value: the body stores the zero block, reads it back, and leaves its last store's payload — of the
    two input blocks, each read whole, and the zero block. -/
theorem out1_A_2_eq (c : Dev nD) (i : grid1.Coords) (arg2 : Memref sig .tc .vmem S2x768 .f32) (harg2 : arg2.IsWhole)
    (arg3 : Memref sig .tc .vmem S2x768 .f32) (harg3 : arg3.IsWhole) (arg4 : Memref sig .tc .vmem S1x1 .f32) (harg4 : arg4.IsWhole) (hc0 : cond1_0 i)
    (x0 : Vec F S2x768 .f32) (x1 : Vec F S2x768 .f32) :
    out1_A_2 c i arg2 harg2 arg3 harg3 arg4 harg4 hc0 x0 x1 = k1_pay2 x0 x1 (k1_pay1 (F := F)) := by
  unfold out1_A_2
  rw [View.read_writes_eq_canon _ _ _ (cover1_A_2 c i arg2 harg2 arg3 harg3 arg4 harg4 hc0 x0 x1)]
  unfold kernelRun1_A
  dsimp only
  sl_unfold_words
  rw [View.canon_cons_unit_zero (S := S1x1) hz2, View.readCov_unit_zero (S := S1x1) _ hz2]
  simp only [View.readAt_eq_ld, harg2.read_unread, harg3.read_unread, View.ld_unit_zero (S := S2x768) hz2]

/-- After the first point the output holds the last store's payload: of the first point's two input blocks and the
    zero block the body had just stored and read back. -/
theorem outsAt1_zero (c : Dev nD) (h : 0 < cfg1.N) :
    outsAt1 V c 0 h = k1_pay2 (iblk1 V c 0 ⟨0, h⟩) (iblk1 V c 1 ⟨0, h⟩) (k1_pay1 (F := F)) :=
  (outsAt1_A V c ⟨0, h⟩ (Nat.zero_mod _)).trans (out1_A_2_eq ..)

/-- After a later point the output holds the store's payload: of that point's two input blocks and what the point
    before left. -/
theorem outsAt1_succ (c : Dev nD) (n : ℕ) (h : n + 1 < cfg1.N) :
    outsAt1 V c (n + 1) h = k1_pay2 (iblk1 V c 0 ⟨n + 1, h⟩) (iblk1 V c 1 ⟨n + 1, h⟩) (outsAt1 V c n (Nat.lt_of_succ_lt h)) := by
  have hN : n + 1 < 144 := lt_of_lt_of_eq h (show cfg1.N = 144 from N_1)
  have hB : ¬(⟨n + 1, h⟩ : Fin cfg1.N).val % 144 = 0 := by dsimp only; omega
  rw [outsAt1_B V c ⟨n + 1, h⟩ hB, out1_B_2_eq]
  rfl

/-! ## The pipeline's proof data -/

/-- The proof data of the pipeline on core `c`: the arrays as the region finds them (`V`); after the body at point
    `t` each input's buffer at its block and the output's at `outsAt1`; the invariant the scoped rest and the generator
    register; nothing owed; the two input windows stage one array, each holding one half of it, the output's array
    held outright. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt)
  Φ _ := Pipeline.ΦA spec1 c
  q w := match w with
    | ⟨0, _⟩ => fullShare.left
    | ⟨1, _⟩ => fullShare.right
    | ⟨2, _⟩ => fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
/-- At a point after the first the output's staging buffer holds what the body left at the point before: the buffer is
    written back after the last point only, the window is live and uncut. -/
theorem before1_2_B (c : Dev nD) (t : Fin cfg1.N) (h0 : ¬t.val % 144 = 0) (d) :
    (dat1 V c).before 2 t d = (outsAt1 V c (t.val - 1) (Nat.lt_of_le_of_lt (Nat.sub_le _ _) t.isLt)) := by
  have hN : t.val < 144 := lt_of_lt_of_eq t.isLt (show cfg1.N = 144 from N_1)
  rw [Dat.before_out_kept _ 2 rfl t (by omega) (Bool.eq_false_iff.mpr fun h => by have := (flush1_2 _).mp h; dsimp only at this; omega)
    (fun _ => rfl) (fun _ _ => rfl)]
  dsimp only [dat1]

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 800000 in
/-- The body at any point: the inputs' memrefs hold their blocks; the closed form says which case the point is in; at a
    later point the output holds what the point before left; so the case's run applies; the invariant passes through
    unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  have hN : t.val < 144 := lt_of_lt_of_eq t.isLt (show cfg1.N = 144 from N_1)
  by_cases h0 : t.val % 144 = 0
  · rw [outsAt1_A V c t h0]
    unfold out1_A_2
    iintro ⟨HΦ, Ho, ⟨%d0, H0⟩, ⟨%d1, H1⟩, ⟨%d2, H2⟩⟩
    iapply ((kernelRun1_A c (grid1.coords t) _ _ _ _ _ _ ((hcond1_0 t).mpr h0) (iblk1 V c 0 t) (iblk1 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover1_A_2 c _ _ _ _ _ _ _ _ _ _)
  · rw [outsAt1_B V c t h0]
    simp only [before1_2_B V c t h0]
    unfold out1_B_2
    iintro ⟨HΦ, Ho, ⟨%d0, H0⟩, ⟨%d1, H1⟩, ⟨%d2, H2⟩⟩
    iapply ((kernelRun1_B c (grid1.coords t) _ _ _ _ _ _ (fun h => h0 ((hcond1_0 t).mp h)) (iblk1 V c 0 t) (iblk1 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover1_B_2 c _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- info: 'Cert.KernelIdeal.Hand.body_obligation1' depends on axioms: [propext, Classical.choice, Quot.sound] -/
#guard_msgs in #print axioms body_obligation1

end Cert.KernelIdeal.Hand

end
-- ==== Proof.KI.Shared1.lean ====
import proofs.«156140_j33363305955887_2_alg».proof.Proof.KI.Region1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A whole array's view covers every element. -/
theorem set_v1 : (View.whole main_v1 : View sig .tc _ _ _).set = Finset.univ := (Memref.isWhole_whole main_v1).set_eq_univ
theorem set_v2 : (View.whole main_v2 : View sig .tc _ _ _).set = Finset.univ := (Memref.isWhole_whole main_v2).set_eq_univ

/-- Entering the second call. Its first two windows read ONE array (the flattened tags), so of the core's unscoped
    buffers that array's buffer is split into the two halves the windows hold; the result's buffer goes whole to the
    third window; every other buffer bypasses the call. -/
theorem arrays1_of_bufs (c : Dev nD) :
    (unscopedBufs c (V c) : sProp 𝕄)
      ⊢ iprop((dat1 V c).arrays ((dat1 V c).arrAt · 0) ∗ Pipeline.unscopedRest (Ix := Unit) (Name := ℕ) (U := UR sig nD τ) (Lvl := ℕ) spec1 c (V c)) := by
  rw [Pipeline.unscopedBufs_split₀ cfgs (1 : Fin 2) winFacts₀1.arr_unscoped c (V c)]
  refine sep_mono ?_ .rfl
  unfold Pipeline.arrBufs Dat.arrays
  rw [bigSep_eq_bigSepL_of_eq [main_v1, main_v2] (by decide) (by decide), bigSep_W1]
  simp only [bigSepL_cons_cons]
  rw [set_v1, set_v2]
  show (iprop((c.tc.loc main_v1 ↦{fullShare} V c main_v1) ∗ (c.tc.loc main_v2 ↦{fullShare} V c main_v2)) : sProp 𝕄)
    ⊢ iprop((c.tc.loc main_v1 ↦{fullShare.left} V c main_v1) ∗ (c.tc.loc main_v1 ↦{fullShare.right} V c main_v1) ∗ (c.tc.loc main_v2 ↦{fullShare} V c main_v2))
  iintro ⟨⟨H1, H2⟩, H3⟩
  isplitl [H1]; · iexact H1
  isplitl [H2]; · iexact H2
  iexact H3

/-- Leaving it. An input array is never written, so the two halves rejoin at the contents they were split at; the
    result's buffer comes back at what the write-backs left; the rest is as it was: the core's unscoped buffers at
    any contents `V'` that has the result there and agrees with `V` elsewhere. -/
theorem bufs_of_arrays1 (V' : (c : Dev nD) → (b : Ref sig .tc) → Buf (Elt F) ((c : Thread nD τ).loc b)) (c : Dev nD)
    (h2 : V' c main_v2 = (dat1 V c).arrAt 2 cfg1.N) (hrest : ∀ b, b ≠ main_v2 → V' c b = V c b) :
    iprop((dat1 V c).arrays ((dat1 V c).arrAt · cfg1.N) ∗ Pipeline.unscopedRest (Ix := Unit) (Name := ℕ) (U := UR sig nD τ) (Lvl := ℕ) spec1 c (V c))
      ⊢ (unscopedBufs c (V' c) : sProp 𝕄) := by
  rw [Pipeline.unscopedBufs_split₀ cfgs (1 : Fin 2) winFacts₀1.arr_unscoped c (V' c)]
  refine sep_mono ?_ (Entails.of_eq ?_)
  · unfold Pipeline.arrBufs Dat.arrays
    rw [bigSep_eq_bigSepL_of_eq [main_v1, main_v2] (by decide) (by decide), bigSep_W1]
    simp only [bigSepL_cons_cons]
    rw [set_v1, set_v2, (dat1 V c).arrAt_in 0 rfl, (dat1 V c).arrAt_in 1 rfl]
    show (iprop((c.tc.loc main_v1 ↦{fullShare.left} V c main_v1) ∗ (c.tc.loc main_v1 ↦{fullShare.right} V c main_v1)
        ∗ (c.tc.loc main_v2 ↦{fullShare} (dat1 V c).arrAt 2 cfg1.N)) : sProp 𝕄)
      ⊢ iprop((c.tc.loc main_v1 ↦{fullShare} V' c main_v1) ∗ (c.tc.loc main_v2 ↦{fullShare} V' c main_v2))
    rw [hrest main_v1 (by decide), h2]
    iintro ⟨H1, H2, H3⟩
    icombine H1 H2 as H
    isplitl [H]; · iexact H
    iexact H3
  · unfold Pipeline.unscopedRest
    exact bigSep_congr fun b hb => by
      rw [hrest b fun e => (Finset.mem_sdiff.mp hb).2 (e ▸ Finset.mem_image.mpr ⟨2, Finset.mem_univ _, rfl⟩)]

end Cert.KernelIdeal.Hand

end
-- ==== Proof.KI.Run.lean ====
import proofs.«156140_j33363305955887_2_alg».proof.Proof.KI.Region0
import proofs.«156140_j33363305955887_2_alg».proof.Proof.KI.Region1
import proofs.«156140_j33363305955887_2_alg».proof.Proof.KI.Shared1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary of the program: the first call, one reshape, the second call, the closing
    scalar arithmetic -/

/-- Core `c`'s buffers at launch: what the first call is entered from. -/
abbrev W0 : Dev nD → Valuation τ sig (Elt F) := fun c b => (s₀ m ρ).mem ((c : Dev nD), b)
abbrev VE0 : (c : Dev nD) → (b : Ref sig .tc) → Buf (Elt F) ((c : Thread nD τ).loc b) := fun c b => W0 m ρ c b
/-- After the first call: its four arrays at what its write-backs leave, every other buffer as before. -/
def W1 (c : Dev nD) : Valuation τ sig (Elt F) :=
  Pipeline.withArrays spec0 c (W0 m ρ c) fun w => (dat0 (VE0 m ρ) c).arrAt w cfg0.N
theorem W1_arr (c : Dev nD) (w : Fin cfg0.W) :
    W1 m ρ c (Proc.devRef .tc (Pipeline.arrRef spec0 w)) = (dat0 (VE0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev VE1 : (c : Dev nD) → (b : Ref sig .tc) → Buf (Elt F) ((c : Thread nD τ).loc b) := fun c b => W1 m ρ c b
theorem hF0 (c : Dev nD) (w : Fin cfg0.W) : (dat0 (VE0 m ρ) c).arrAt w cfg0.N = VE1 m ρ c (Pipeline.arrRef spec0 w) :=
  (W1_arr m ρ c w).symm
theorem hrest0 (c : Dev nD) : ∀ b, b ∉ Finset.univ.image (Pipeline.arrRef spec0) → VE1 m ρ c b = VE0 m ρ c b :=
  fun b hb => W1_of_ne m ρ c b fun w e => hb (Finset.mem_image.mpr ⟨w, Finset.mem_univ _, e⟩)

/-- After the reshape of the averaged tags to [2, 9216]: what the second call is entered from. -/
abbrev W2 : Dev nD → Valuation τ sig (Elt F) := fun c => StableHlo.after hostOps1 (W1 m ρ c)
abbrev VE2 : (c : Dev nD) → (b : Ref sig .tc) → Buf (Elt F) ((c : Thread nD τ).loc b) := fun c b => W2 m ρ c b
/-- After the second call: its one result array at what the last point's write-back leaves; its two input windows
    read one array, which stays as it was. -/
def W3 (c : Dev nD) : Valuation τ sig (Elt F) :=
  Function.update (W2 m ρ c) (Proc.devRef .tc main_v2) ((dat1 (VE2 m ρ) c).arrAt 2 cfg1.N)
abbrev VE3 : (c : Dev nD) → (b : Ref sig .tc) → Buf (Elt F) ((c : Thread nD τ).loc b) := fun c b => W3 m ρ c b
theorem W3_v2 (c : Dev nD) : VE3 m ρ c main_v2 = (dat1 (VE2 m ρ) c).arrAt 2 cfg1.N := by
  show W3 m ρ c (Proc.devRef .tc main_v2) = _
  unfold W3; exact Function.update_self ..
theorem W3_of_ne (c : Dev nD) (b : Ref sig .tc) (hb : b ≠ main_v2) : VE3 m ρ c b = VE2 m ρ c b := by
  show W3 m ρ c (Proc.devRef .tc b) = _
  unfold W3; exact Function.update_of_ne (StableHlo.devRef_ne_of_ne hb) ..
/-- After the closing scalar arithmetic. -/
abbrev W4 : Dev nD → Valuation τ sig (Elt F) := fun c => StableHlo.after hostOps2 (W3 m ρ c)

/-! ## The proof data of both calls and the state between items -/

abbrev admH : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) admH p) c
  | ⟨0, _⟩ => fun c => dat0 (VE0 m ρ) c
  | ⟨1, _⟩ => fun c => dat1 (VE2 m ρ) c
abbrev 𝒱₀ : Variants := Variants.none
abbrev L : GSem nD τ sig → Finset Unit := fun _ => ∅
abbrev lv : GSem nD τ sig → Unit → ℕ := fun _ _ => 0
/-- What rides beside the buffers through every item: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_freshH : (hostOps1 : List (HloOp τ sig (Elt F))).Forall fun op => op.fresh = ∅ := by
  simp only [List.Forall]; repeat' constructor
theorem hostOps2_freshH : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The second call's two input windows read ONE array: its buffer is held in two halves -/

/-- Entering the second call, at this run's contents. -/
theorem entry1 (c : Dev nD) :
    (unscopedBufs c (VE2 m ρ c) : sProp 𝕄)
      ⊢ iprop((pdats m ρ 1 c).arrays ((pdats m ρ 1 c).arrAt · 0) ∗ Pipeline.unscopedRest (Ix := Unit) (Name := ℕ) (U := UR sig nD τ) (Lvl := ℕ) spec1 c (VE2 m ρ c)) :=
  arrays1_of_bufs (VE2 m ρ) c

/-- Leaving it, at this run's contents. -/
theorem exit1 (c : Dev nD) :
    iprop((pdats m ρ 1 c).arrays ((pdats m ρ 1 c).arrAt · cfg1.N) ∗ Pipeline.unscopedRest (Ix := Unit) (Name := ℕ) (U := UR sig nD τ) (Lvl := ℕ) spec1 c (VE2 m ρ c))
      ⊢ (unscopedBufs c (VE3 m ρ c) : sProp 𝕄) :=
  bufs_of_arrays1 (VE2 m ρ) (VE3 m ρ) c (W3_v2 m ρ c) (fun b hb => W3_of_ne m ρ c b hb)

/-! ## The two calls as segments -/

set_option backward.isDefEq.respectTransparency.types false in
def reg0 : Pipeline.RegionSeg (pcfgs (F := F)) admH (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VE0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (VE0 m ρ c)
  hentry c := by
    rw [Pipeline.ownSems0_none]
    have hsplit := Pipeline.arrays_of_unscopedBufs (p := 0) (pcfgs (F := F)) admH (pdats m ρ) launch0.win launch0.arr_whole c
      ((pdats m ρ 0 c).share_full fun _ => rfl) (VE0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m ρ) ((pdats m ρ 0 c).share_full fun _ => rfl)
      (VE0 m ρ c) (VE1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) admH (pdats m ρ) () defs₀ 𝒱₀ L lv 1 where
  win := winFacts₀1
  block_pos := block_pos1
  stage_whole := stage_whole1
  K := PEmpty
  osem k := k.elim
  ho := Pipeline.OwnSemFacts.none _
  hbody c := (body_obligation1 (VE2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (VE2 m ρ c)
  hentry c := by
    rw [Pipeline.ownSems0_none]
    have hsplit := entry1 m ρ c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 m ρ c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and its run -/

abbrev segs : List (Pipeline.Seg (pcfgs (F := F)) admH (pdats m ρ) () defs₀ 𝒱₀ L lv) :=
  [ .region (reg0 m ρ),
    .host (hseg hostOps1 hostOps1_sub hostOps1_freshH (W1 m ρ)),
    .region (reg1 m ρ),
    .host (hseg hostOps2 hostOps2_sub hostOps2_freshH (W3 m ρ)) ]
theorem main_run (c : Dev nD) : main (F := F) c = Pipeline.Seg.run (segs m ρ) := (main_chain c).trans (by chain_rfl)

set_option backward.isDefEq.respectTransparency.types false in
/-- From any memory with zero counters every weakly fair execution of the program terminates, nothing faulting,
    and the final memory holds every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) admH (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show (iprop(StableHlo.held (c : Thread nD τ) (Pipeline.ucRefs τ sig) (W4 m ρ c) ∗ R c) : sProp 𝕄) ⊢ _
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.KernelIdeal.Hand

end
-- ==== Proof.KI.RunEnd.lean ====
import proofs.«156140_j33363305955887_2_alg».proof.Proof.KI.Run
import proofs.«156140_j33363305955887_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-! ## No item of the program writes an argument array -/

/-- The closing arithmetic writes only its own scalars. -/
theorem W4_of (c : Dev nD) (r : Ref sig .tc) (h : r ∉ hostOps2_W) :
    W4 m ρ c (Proc.devRef .tc r) = W3 m ρ c (Proc.devRef .tc r) :=
  StableHlo.after_of_writes_sub hostOps2 _ hostOps2_writes h
/-- The reshape writes only the flattened tags. -/
theorem W2_of (c : Dev nD) (r : Ref sig .tc) (h : r ∉ hostOps1_W) :
    W2 m ρ c (Proc.devRef .tc r) = W1 m ρ c (Proc.devRef .tc r) :=
  StableHlo.after_of_writes_sub hostOps1 _ hostOps1_writes h

/-- The prediction array reaches the end as launched: the first call reads it through an input window, nothing else
    touches it. -/
theorem W4_main_arg0 (c : Dev nD) : W4 m ρ c (Proc.devRef .tc main_arg0) = m ((c : Thread nD τ).loc main_arg0) :=
  (W4_of m ρ c main_arg0 (by decide)).trans <| (W3_of_ne m ρ c main_arg0 (by decide)).trans <|
    (W2_of m ρ c main_arg0 (by decide)).trans <| (W1_arr m ρ c 0).trans <|
      ((dat0 (VE0 m ρ) c).arrAt_in 0 rfl _).trans ((A_eq0 (VE0 m ρ) c 0).trans rfl)
/-- The label array likewise. -/
theorem W4_main_arg1 (c : Dev nD) : W4 m ρ c (Proc.devRef .tc main_arg1) = m ((c : Thread nD τ).loc main_arg1) :=
  (W4_of m ρ c main_arg1 (by decide)).trans <| (W3_of_ne m ρ c main_arg1 (by decide)).trans <|
    (W2_of m ρ c main_arg1 (by decide)).trans <| (W1_arr m ρ c 1).trans <|
      ((dat0 (VE0 m ρ) c).arrAt_in 1 rfl _).trans ((A_eq0 (VE0 m ρ) c 1).trans rfl)

/-- The frame: every weakly fair execution terminates, nothing faulting, and both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W4_main_arg0 m ρ c),
     (h c _ (mem_uc main_arg1 (by decide))).trans (W4_main_arg1 m ρ c)⟩) (run_main m ρ)

end Cert.KernelIdeal.Hand

end
-- ==== Proof.KDefs.lean ====
/-
  The idealized kernel's results as functions of its two argument arrays, over the extended reals.
  The first call computes, from the prediction x0 : [2,4,96,96] and the label x1 : [2,2,96,96], a row of four totals
  (the masked smooth-L1 total, the pull total, the mask total, the count of nonzero averaged tags) and the
  array a : [2,1,96,96] of masked averaged tags. The second call runs over a 12 × 12 grid of pairs of
  768-column tiles of a (flattened to [2, 9216]) and adds each pair's total of
  nz(p)·nz(q)·max(1 − |a(p) − a(q)|, 0) into one running total that starts from zero.
-/
import proofs.«156140_j33363305955887_2_alg».proof.Proof.Gen.KernelIdeal.Skeleton
import Idealize.ShloMosaic.PureOps.Ideal
import Idealize.ShloMosaic.Lib.ValueIdx

noncomputable section

namespace Cert.Bridge

open Idealize.ShloMosaic Cert.KernelIdeal Cert.KernelIdeal.Gen

/-- The row of four totals the first call stores. -/
def scalK (x0 : Vec Ideal S2x4x96x96 .f32) (x1 : Vec Ideal S2x2x96x96 .f32) : Vec Ideal S1x4 .f32 :=
  k0_pay2 (k0_pay3 x1) (k0_pay5 x0 x1) (k0_pay7 x0 x1) (k0_pay8 x0 x1)

/-- The masked averaged tags the first call stores. -/
def aK (x0 : Vec Ideal S2x4x96x96 .f32) (x1 : Vec Ideal S2x2x96x96 .f32) : Vec Ideal S2x1x96x96 .f32 :=
  k0_pay1 (k0_pay3 x1) (k0_pay7 x0 x1)

/-- The same array flattened to [2, 9216], as the second call receives it. -/
def aFlatK (x0 : Vec Ideal S2x4x96x96 .f32) (x1 : Vec Ideal S2x2x96x96 .f32) : Vec Ideal S2x9216 .f32 :=
  shapeCast S2x9216 (aK x0 x1) shapeCasts_S2x1x96x96_S2x9216

/-- Columns 768·k … 768·k + 767 of a [2, 9216] array. -/
def tile (A : Vec Ideal S2x9216 .f32) (k : Fin 12) : Vec Ideal S2x768 .f32 := fun y =>
  A (ValueIdx.ix2 (⟨(y 0).val, (y 0).isLt⟩ : Fin 2)
    (⟨768 * k.val + (y 1).val, by
        have h1 : (y 1).val < 768 := (y 1).isLt
        have hk : k.val < 12 := k.isLt
        omega⟩ : Fin 9216))

/-- The running total after the first n grid points, the points taken row by row: point n is the pair of
    tiles (n / 12, n % 12). -/
def pushAcc (A : Vec Ideal S2x9216 .f32) : ℕ → Vec Ideal S1x1 .f32
  | 0 => k1_pay1 (F := Ideal)
  | n + 1 => k1_pay2 (tile A ⟨n / 12 % 12, Nat.mod_lt _ (by decide)⟩) (tile A ⟨n % 12, Nat.mod_lt _ (by decide)⟩) (pushAcc A n)

/-- What the second call leaves: the total after all 144 points. -/
def pushK (A : Vec Ideal S2x9216 .f32) : Vec Ideal S1x1 .f32 := pushAcc A 144

end Cert.Bridge

end
-- ==== Proof.KI.Value.lean ====
/- What each call's result arrays hold after the run of the idealized program, read off the pipelines' proof data.
   The first call has one grid point and every window's block is its whole array: each input block is the argument
   array, the one write-back writes the whole result, so the two result arrays end at the payloads of the two
   arguments. The second call's two input windows read the 768-column tiles (t / 12 % 12) and (t % 12) of one
   [2, 9216] array; its 1×1 result block is reset at the first point, added into at every point and written back
   at the last point only, so the result ends at the running total after all 144 points. -/
import proofs.«156140_j33363305955887_2_alg».proof.Proof.KI.Region0
import proofs.«156140_j33363305955887_2_alg».proof.Proof.KI.Region1
import proofs.«156140_j33363305955887_2_alg».proof.Proof.KDefs
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat)

variable (V : (c : Dev nD) → (b : Ref sig .tc) → Buf (Elt Ideal) ((c : Thread nD τ).loc b))

/-! ## The first call: one point, every block the whole array -/

/-- At the one grid point every window's block starts at offset zero on every axis. -/
theorem off0_0 (t : Fin cfg0.N) : (fun a => win0_0.index t a * main_arg0.ty.shape.size a) = fun _ => 0 := by
  obtain rfl := fin_N0 t; exact funext fun a => by fin_cases a <;> decide
theorem off0_1 (t : Fin cfg0.N) : (fun a => win0_1.index t a * main_arg1.ty.shape.size a) = fun _ => 0 := by
  obtain rfl := fin_N0 t; exact funext fun a => by fin_cases a <;> decide
theorem off0_2 (t : Fin cfg0.N) : (fun a => win0_2.index t a * main_v0_0.ty.shape.size a) = fun _ => 0 := by
  obtain rfl := fin_N0 t; exact funext fun a => by fin_cases a <;> decide
theorem off0_3 (t : Fin cfg0.N) : (fun a => win0_3.index t a * main_v0_1.ty.shape.size a) = fun _ => 0 := by
  obtain rfl := fin_N0 t; exact funext fun a => by fin_cases a <;> decide

/-- So each input block is its argument array: a read through the whole rectangle. -/
theorem iblk0_0 (c : Dev nD) (t : Fin cfg0.N) : iblk0 V c 0 t = V c main_arg0 := by
  unfold iblk0
  exact Memref.read_access_unit_zero (Elt Ideal) main_arg0 (off0_0 t) (fun a => by rw [congrFun (off0_0 t) a]; simp) (V c main_arg0)

theorem iblk0_1 (c : Dev nD) (t : Fin cfg0.N) : iblk0 V c 1 t = V c main_arg1 := by
  unfold iblk0
  exact Memref.read_access_unit_zero (Elt Ideal) main_arg1 (off0_1 t) (fun a => by rw [congrFun (off0_1 t) a]; simp) (V c main_arg1)

/-- The one write-back of result window 2 writes the row of four totals of the two arguments: the block at zero
    offsets, read off an array, is the array. -/
theorem flushed0_2 (c : Dev nD) (t : Fin cfg0.N) :
    (dat0 V c).flushed 2 t
      = ((cfg0.win 2).blk t).view.read (Elt Ideal) (Cert.Bridge.scalK (V c main_arg0) (V c main_arg1)) := by
  show (cfg0.win 2).cut (grid0.coords t) ((dat0 V c).after 2 t) = _
  rw [after0_2, out0_2_eq, iblk0_0, iblk0_1]
  exact (Memref.read_access_unit_zero (Elt Ideal) main_v0_0 (off0_2 t) (fun a => by rw [congrFun (off0_2 t) a]; simp)
    (Cert.Bridge.scalK (V c main_arg0) (V c main_arg1))).symm

/-- And of result window 3, the masked averaged tags. -/
theorem flushed0_3 (c : Dev nD) (t : Fin cfg0.N) :
    (dat0 V c).flushed 3 t
      = ((cfg0.win 3).blk t).view.read (Elt Ideal) (Cert.Bridge.aK (V c main_arg0) (V c main_arg1)) := by
  show (cfg0.win 3).cut (grid0.coords t) ((dat0 V c).after 3 t) = _
  rw [after0_3, out0_3_eq, iblk0_0, iblk0_1]
  exact (Memref.read_access_unit_zero (Elt Ideal) main_v0_1 (off0_3 t) (fun a => by rw [congrFun (off0_3 t) a]; simp)
    (Cert.Bridge.aK (V c main_arg0) (V c main_arg1))).symm

/-- The one point's block of window 2 is the whole array: every index is in it. -/
theorem mem_blk0_2 (i : S1x4.Idx) : i ∈ ((cfg0.win 2).blk t0_0).view.set := by
  show i ∈ ((View.whole main_v0_0).slice (win0_2.rect t0_0)).set
  rw [View.set_slice_whole, Rect.mem_set_unit]
  intro a
  have h0 : win0_2.index t0_0 a * main_v0_0.ty.shape.size a = 0 := congrFun (off0_2 t0_0) a
  have hi : (i a).val < main_v0_0.ty.shape.size a := (i a).isLt
  show win0_2.index t0_0 a * main_v0_0.ty.shape.size a ≤ (i a).val
    ∧ (i a).val < win0_2.index t0_0 a * main_v0_0.ty.shape.size a + main_v0_0.ty.shape.size a
  omega

theorem mem_blk0_3 (i : S2x1x96x96.Idx) : i ∈ ((cfg0.win 3).blk t0_0).view.set := by
  show i ∈ ((View.whole main_v0_1).slice (win0_3.rect t0_0)).set
  rw [View.set_slice_whole, Rect.mem_set_unit]
  intro a
  have h0 : win0_3.index t0_0 a * main_v0_1.ty.shape.size a = 0 := congrFun (off0_3 t0_0) a
  have hi : (i a).val < main_v0_1.ty.shape.size a := (i a).isLt
  show win0_3.index t0_0 a * main_v0_1.ty.shape.size a ≤ (i a).val
    ∧ (i a).val < win0_3.index t0_0 a * main_v0_1.ty.shape.size a + main_v0_1.ty.shape.size a
  omega

/-- THE FIRST CALL'S RESULTS: after its run the first result array holds the row of four totals of the two
    argument arrays, -/
theorem arrAt0_2 (c : Dev nD) : (dat0 V c).arrAt 2 cfg0.N = Cert.Bridge.scalK (V c main_arg0) (V c main_arg1) :=
  (dat0 V c).arrAt_eq_of_cover 2 (Cert.Bridge.scalK (V c main_arg0) (V c main_arg1)) (fun t _ => flushed0_2 V c t)
    fun i => ⟨t0_0, flush0_2 t0_0, mem_blk0_2 i⟩

/-- and the second the masked averaged tags. -/
theorem arrAt0_3 (c : Dev nD) : (dat0 V c).arrAt 3 cfg0.N = Cert.Bridge.aK (V c main_arg0) (V c main_arg1) :=
  (dat0 V c).arrAt_eq_of_cover 3 (Cert.Bridge.aK (V c main_arg0) (V c main_arg1)) (fun t _ => flushed0_3 V c t)
    fun i => ⟨t0_0, flush0_3 t0_0, mem_blk0_3 i⟩

/-! ## The second call's input blocks: 768-column tiles of one array -/

/-- The printed index maps, decided over the grid: both input windows stay on row block 0; window 0 sits on column
    tile t / 12 % 12 and window 1 on column tile t % 12. -/
theorem idx1_0 : ∀ t : Fin cfg1.N, win1_0.index t (1 : Fin 2) = t.val / 12 % 12 ∧ win1_0.index t (0 : Fin 2) = 0 :=
  (by decide +kernel : ∀ t : Fin grid1.N, win1_0.index t (1 : Fin 2) = t.val / 12 % 12 ∧ win1_0.index t (0 : Fin 2) = 0)
theorem idx1_1 : ∀ t : Fin cfg1.N, win1_1.index t (1 : Fin 2) = t.val % 12 ∧ win1_1.index t (0 : Fin 2) = 0 :=
  (by decide +kernel : ∀ t : Fin grid1.N, win1_1.index t (1 : Fin 2) = t.val % 12 ∧ win1_1.index t (0 : Fin 2) = 0)

/-- An element of window 0's block at point `t` is the array's element in the same row, 768 · (t / 12 % 12) columns on:
    a block's element sits at block index × block size + its own coordinate. -/
theorem iblk1_0_apply (c : Dev nD) (t : Fin cfg1.N) (y : S2x768.Idx) :
    (iblk1 V c 0 t : Vec Ideal S2x768 .f32) y
      = Cert.Bridge.tile (V c main_v1) ⟨t.val / 12 % 12, Nat.mod_lt _ (by decide)⟩ y := by
  obtain ⟨e1, e0⟩ := idx1_0 t
  unfold iblk1 Cert.Bridge.tile
  rw [View.read_apply]
  show V c main_v1 _ = V c main_v1 _
  congr 1
  funext a
  apply Fin.ext
  match a with
  | ⟨0, _⟩ => show win1_0.index t (0 : Fin 2) * 2 + 1 * (y 0).val = (y 0).val; rw [e0]; omega
  | ⟨1, _⟩ => show win1_0.index t (1 : Fin 2) * 768 + 1 * (y 1).val = 768 * (t.val / 12 % 12) + (y 1).val; rw [e1]; omega

/-- The same of window 1, 768 · (t % 12) columns on. -/
theorem iblk1_1_apply (c : Dev nD) (t : Fin cfg1.N) (y : S2x768.Idx) :
    (iblk1 V c 1 t : Vec Ideal S2x768 .f32) y
      = Cert.Bridge.tile (V c main_v1) ⟨t.val % 12, Nat.mod_lt _ (by decide)⟩ y := by
  obtain ⟨e1, e0⟩ := idx1_1 t
  unfold iblk1 Cert.Bridge.tile
  rw [View.read_apply]
  show V c main_v1 _ = V c main_v1 _
  congr 1
  funext a
  apply Fin.ext
  match a with
  | ⟨0, _⟩ => show win1_1.index t (0 : Fin 2) * 2 + 1 * (y 0).val = (y 0).val; rw [e0]; omega
  | ⟨1, _⟩ => show win1_1.index t (1 : Fin 2) * 768 + 1 * (y 1).val = 768 * (t.val % 12) + (y 1).val; rw [e1]; omega

/-- So window 0's block at point `t` is tile t / 12 % 12 of the array, -/
theorem iblk1_0 (c : Dev nD) (t : Fin cfg1.N) :
    iblk1 V c 0 t = Cert.Bridge.tile (V c main_v1) ⟨t.val / 12 % 12, Nat.mod_lt _ (by decide)⟩ :=
  funext fun y => iblk1_0_apply V c t y

/-- and window 1's is tile t % 12. -/
theorem iblk1_1 (c : Dev nD) (t : Fin cfg1.N) :
    iblk1 V c 1 t = Cert.Bridge.tile (V c main_v1) ⟨t.val % 12, Nat.mod_lt _ (by decide)⟩ :=
  funext fun y => iblk1_1_apply V c t y

/-! ## The second call's running total -/

/-- What the result's staging buffer holds after point `n` is the running total after the first `n + 1` points:
    both are the same recursion once each input block is its tile. -/
theorem outsAt1_eq (c : Dev nD) (n : ℕ) (h : n < cfg1.N) :
    outsAt1 V c n h = Cert.Bridge.pushAcc (V c main_v1) (n + 1) := by
  induction n with
  | zero =>
    rw [outsAt1_zero, iblk1_0, iblk1_1, Cert.Bridge.pushAcc, Cert.Bridge.pushAcc]
  | succ n ih =>
    rw [outsAt1_succ, iblk1_0, iblk1_1, ih]
    conv_rhs => rw [Cert.Bridge.pushAcc]

/-! ## The second call's result: written back at the last point only -/

/-- The result window's block index never moves: it is zero on both axes at every point. -/
theorem idx1_2 : ∀ t : Fin cfg1.N, win1_2.index t (0 : Fin 2) = 0 ∧ win1_2.index t (1 : Fin 2) = 0 :=
  (by decide +kernel : ∀ t : Fin grid1.N, win1_2.index t (0 : Fin 2) = 0 ∧ win1_2.index t (1 : Fin 2) = 0)

theorem off1_2 (t : Fin cfg1.N) : (fun a => win1_2.index t a * main_v2.ty.shape.size a) = fun _ => 0 := by
  obtain ⟨e0, e1⟩ := idx1_2 t
  funext a
  match a with
  | ⟨0, _⟩ => show win1_2.index t (0 : Fin 2) * _ = 0; rw [e0, Nat.zero_mul]
  | ⟨1, _⟩ => show win1_2.index t (1 : Fin 2) * _ = 0; rw [e1, Nat.zero_mul]

/-- The grid's last point. -/
def tLast1 : Fin grid1.N := ⟨143, by rw [N_1]; decide⟩

/-- The one write-back, at the last point, writes the total after all 144 points: the 1 × 1 block at zero
    offsets, read off an array, is the array. -/
theorem flushed1_2 (c : Dev nD) (t : Fin cfg1.N) (hf : (cfg1.win 2).flush t = true) :
    (dat1 V c).flushed 2 t = ((cfg1.win 2).blk t).view.read (Elt Ideal) (Cert.Bridge.pushK (V c main_v1)) := by
  have hN : cfg1.N = 144 := N_1
  have h1 : t.val + 1 = 144 := by have := (flush1_2 t).mp hf; have := t.isLt; omega
  show (cfg1.win 2).cut (grid1.coords t) ((dat1 V c).after 2 t) = _
  rw [after1_2, outsAt1_eq, h1]
  exact (Memref.read_access_unit_zero (Elt Ideal) main_v2 (off1_2 t) (fun a => by rw [congrFun (off1_2 t) a]; simp)
    (Cert.Bridge.pushK (V c main_v1))).symm

/-- The last point's block of the result window is the whole 1 × 1 array. -/
theorem mem_blk1_2 (i : S1x1.Idx) : i ∈ ((cfg1.win 2).blk tLast1).view.set := by
  show i ∈ ((View.whole main_v2).slice (win1_2.rect tLast1)).set
  rw [View.set_slice_whole, Rect.mem_set_unit]
  intro a
  have h0 : win1_2.index tLast1 a * main_v2.ty.shape.size a = 0 := congrFun (off1_2 tLast1) a
  have hi : (i a).val < main_v2.ty.shape.size a := (i a).isLt
  show win1_2.index tLast1 a * main_v2.ty.shape.size a ≤ (i a).val
    ∧ (i a).val < win1_2.index tLast1 a * main_v2.ty.shape.size a + main_v2.ty.shape.size a
  omega

/-- THE SECOND CALL'S RESULT: after its run the result array holds the total after all 144 points. -/
theorem arrAt1_2 (c : Dev nD) : (dat1 V c).arrAt 2 cfg1.N = Cert.Bridge.pushK (V c main_v1) :=
  (dat1 V c).arrAt_eq_of_cover 2 (Cert.Bridge.pushK (V c main_v1)) (fun t hf => flushed1_2 V c t hf)
    fun i => ⟨tLast1, (flush1_2 tLast1).mpr rfl, mem_blk1_2 i⟩

end Cert.KernelIdeal.Hand

end
-- ==== Proof.KTail.lean ====
/-
  The closing scalar arithmetic of the idealized kernel's program, as one function of the two calls' results: from the
  row s = (den, pull, msum, nz) and the 1 × 1 total p,
      0.01 · ((5 · den) / max(1, msum) + pull / max(1, msum) + (p − nz)).
-/
import proofs.«156140_j33363305955887_2_alg».proof.Proof.KDefs

noncomputable section

namespace Cert.Bridge

open Idealize.ShloMosaic Cert.KernelIdeal Cert.KernelIdeal.Gen

/-- Entry k of the row of totals, as a scalar array. -/
def entryK (s : Vec Ideal S1x4 .f32) (k : Fin 4) : Vec Ideal S_ .f32 :=
  match k with
  | ⟨0, _⟩ => shapeCast S_ (extractStridedSlice S1x1 ![0, 0] s slices_S1x4_S1x1_0_0) shapeCasts_S1x1_S_
  | ⟨1, _⟩ => shapeCast S_ (extractStridedSlice S1x1 ![0, 1] s slices_S1x4_S1x1_0_1) shapeCasts_S1x1_S_
  | ⟨2, _⟩ => shapeCast S_ (extractStridedSlice S1x1 ![0, 2] s slices_S1x4_S1x1_0_2) shapeCasts_S1x1_S_
  | ⟨3, _⟩ => shapeCast S_ (extractStridedSlice S1x1 ![0, 3] s slices_S1x4_S1x1_0_3) shapeCasts_S1x1_S_

/-- The loss from the two calls' results. -/
def tailK (s : Vec Ideal S1x4 .f32) (p : Vec Ideal S1x1 .f32) : Vec Ideal S_ .f32 :=
  mulf (constant (F := Ideal) S_ .f32 0x3C23D70A#32)
    (addf
      (addf
        (Host.divf (F := Ideal) (mulf (constant (F := Ideal) S_ .f32 0x40A00000#32) (entryK s 0))
          (maximumf (constant (F := Ideal) S_ .f32 0x3F800000#32) (entryK s 2)))
        (Host.divf (F := Ideal) (entryK s 1) (maximumf (constant (F := Ideal) S_ .f32 0x3F800000#32) (entryK s 2))))
      (subf (shapeCast S_ p shapeCasts_S1x1_S_) (entryK s 3)))

end Cert.Bridge

end
-- ==== Proof.KI.RunValue.lean ====
/-
  What the idealized kernel's program returns, as a function of its two argument arrays: reading the last boundary's
  contents at the result scalar gives the closing arithmetic applied to the first call's row of four totals and to
  the second call's accumulated total of the flattened averaged tags.
-/
import proofs.«156140_j33363305955887_2_alg».proof.Proof.KI.RunEnd
import proofs.«156140_j33363305955887_2_alg».proof.Proof.KI.Value
import proofs.«156140_j33363305955887_2_alg».proof.Proof.KTail
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ) (ρ : Dev nD → PrngReg)

/-- The result scalar after the closing arithmetic, from the two calls' result buffers before it. -/
theorem W4_main_v19 (c : Dev nD) :
    W4 m ρ c (Proc.devRef .tc main_v19)
      = Cert.Bridge.tailK (W3 m ρ c (Proc.devRef .tc main_v0_0)) (W3 m ρ c (Proc.devRef .tc main_v2)) := by
  show StableHlo.after hostOps2 (W3 m ρ c) (Proc.devRef .tc main_v19) = _
  after_results
  rfl

/-- After the first call its first result buffer holds the row of four totals of the launch arrays, -/
theorem W1_v0_0 (c : Dev nD) :
    W1 m ρ c (Proc.devRef .tc main_v0_0)
      = Cert.Bridge.scalK (m ((c : Thread nD τ).loc main_arg0)) (m ((c : Thread nD τ).loc main_arg1)) :=
  (W1_arr m ρ c 2).trans (arrAt0_2 (VE0 m ρ) c)
/-- and its second the masked averaged tags. -/
theorem W1_v0_1 (c : Dev nD) :
    W1 m ρ c (Proc.devRef .tc main_v0_1)
      = Cert.Bridge.aK (m ((c : Thread nD τ).loc main_arg0)) (m ((c : Thread nD τ).loc main_arg1)) :=
  (W1_arr m ρ c 3).trans (arrAt0_3 (VE0 m ρ) c)

/-- The reshape flattens them to [2, 9216]. -/
theorem W2_v1 (c : Dev nD) :
    W2 m ρ c (Proc.devRef .tc main_v1)
      = Cert.Bridge.aFlatK (m ((c : Thread nD τ).loc main_arg0)) (m ((c : Thread nD τ).loc main_arg1)) := by
  show StableHlo.after hostOps1 (W1 m ρ c) (Proc.devRef .tc main_v1) = _
  after_results
  rw [W1_v0_1]
  rfl

/-- The row of totals is still there when the closing arithmetic starts, -/
theorem W3_v0_0 (c : Dev nD) :
    W3 m ρ c (Proc.devRef .tc main_v0_0)
      = Cert.Bridge.scalK (m ((c : Thread nD τ).loc main_arg0)) (m ((c : Thread nD τ).loc main_arg1)) :=
  (W3_of_ne m ρ c main_v0_0 (by decide)).trans ((W2_of m ρ c main_v0_0 (by decide)).trans (W1_v0_0 m ρ c))
/-- beside the second call's accumulated total of the flattened tags. -/
theorem W3_v2_val (c : Dev nD) :
    W3 m ρ c (Proc.devRef .tc main_v2)
      = Cert.Bridge.pushK (Cert.Bridge.aFlatK (m ((c : Thread nD τ).loc main_arg0)) (m ((c : Thread nD τ).loc main_arg1))) :=
  (W3_v2 m ρ c).trans ((arrAt1_2 (VE2 m ρ) c).trans (congrArg Cert.Bridge.pushK (W2_v1 m ρ c)))

/-- The program's result from its arguments. -/
theorem kernel_value (c : Dev nD) :
    W4 m ρ c (Proc.devRef .tc main_v19)
      = Cert.Bridge.tailK
          (Cert.Bridge.scalK (m ((c : Thread nD τ).loc main_arg0)) (m ((c : Thread nD τ).loc main_arg1)))
          (Cert.Bridge.pushK (Cert.Bridge.aFlatK (m ((c : Thread nD τ).loc main_arg0)) (m ((c : Thread nD τ).loc main_arg1)))) := by
  rw [W4_main_v19, W3_v0_0, W3_v2_val]

/-- The run with the result named: every weakly fair execution terminates, nothing faulting, the result scalar ends at
    the function above of the launch arrays, and both argument arrays end as launched. -/
theorem run_value : θ_run defs (onTc (τ := τ) (main (F := Ideal))) ⟨m, fun _ => 0, ρ⟩ (fun r => ∀ c : Dev nD,
      r.2.mem ((c.tc : Thread nD τ).loc main_v19)
        = Cert.Bridge.tailK
            (Cert.Bridge.scalK (m ((c : Thread nD τ).loc main_arg0)) (m ((c : Thread nD τ).loc main_arg1)))
            (Cert.Bridge.pushK (Cert.Bridge.aFlatK (m ((c : Thread nD τ).loc main_arg0)) (m ((c : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_v19 (by decide))).trans (kernel_value m ρ c),
     (h c _ (mem_uc main_arg0 (by decide))).trans (W4_main_arg0 m ρ c),
     (h c _ (mem_uc main_arg1 (by decide))).trans (W4_main_arg1 m ρ c)⟩) (run_main m ρ)

end Cert.KernelIdeal.Hand

end
-- ==== Proof.LibStagedTotal.lean ====
/-
  Totals over the extended reals that survive re-layout and staged summation.

  Addition of extended reals is a commutative monoid (⊤ + ⊥ = ⊥ is just a value), so a finite sum may be re-indexed
  by any bijection and regrouped along any partition of its index set, with nothing asked of the terms:
  * a reshape re-indexes by the row-major bijection, so it keeps the total (`sum_shapeCast`);
  * the results of a sum over some axes add up to the total, the fibres of the projection partitioning the index set
    (`sum_reduceAdd`, and `sum_multiReduction_add` for the printed vector reduction from the zero word);
  * hence the staged total  reshape → sum along some axes → reshape → sum into a shape whose axes all have size
    one → reshape  (a row-then-column total kept at rank two throughout) is the sum of the array it starts from
    over every index (`total_chain`; `total_chain'` without the first reshape).
-/
import Idealize.ShloMosaic.PureOps.Ideal.Laws
import Idealize.ShloMosaic.Lib.Pipeline.Value
import Idealize.ShloMosaic.Lib.ValueIdx

noncomputable section

namespace Cert.Bridge

open Idealize.ShloMosaic Idealize.ShloMosaic.ValueIdx

/-- A reshape keeps the total: it re-indexes by the row-major bijection. -/
theorem sum_shapeCast {s t : Shape} (x : s.Idx → EReal) (h : s.ShapeCasts t) :
    ∑ j : t.Idx, shapeCast t x h j = ∑ k : s.Idx, x k :=
  Equiv.sum_comp (Shape.reshapeEquiv h) x

/-- The results of a sum over some axes add up to the total: the fibres of the projection partition
    the index set. -/
theorem sum_reduceAdd {s t : Shape} {axes : List (Fin s.rank)} (h : s.Reduces axes t) (x : s.Idx → EReal) :
    ∑ k : t.Idx, Ideal.reduceAdd h x k = ∑ i : s.Idx, x i := by
  unfold Ideal.reduceAdd
  exact Finset.sum_fiberwise Finset.univ (fun i => h.drop i) x

/-- The same for the printed operation. -/
theorem sum_multiReduction_add {s t : Shape} {axes : List (Fin s.rank)} (src : FVec Ideal s .f32) (acc : BitVec 32)
    (h : s.Reduces axes t) (hφ : FKind.Formats .f32) (hacc : acc = FKind.add.neutral .f32 hφ) :
    ∑ k : t.Idx, multiReduction .add axes t src acc h hφ hacc k = ∑ i : s.Idx, src i :=
  sum_reduceAdd h src

/-- Reshape, sum along some axes, reshape, sum into a shape whose axes all have size one, reshape: the
    total of the array the chain starts from. -/
theorem total_chain {s0 sRC sR sR1 s1 s11 : Shape} (X : FVec Ideal s0 .f32)
    (hc0 : s0.ShapeCasts sRC) {ax1 : List (Fin sRC.rank)} (h1 : sRC.Reduces ax1 sR) (hc1 : sR.ShapeCasts sR1)
    {ax2 : List (Fin sR1.rank)} (h2 : sR1.Reduces ax2 s1) (ht : ∀ b, s1.size b = 1) (hc2 : s1.ShapeCasts s11)
    (hφ : FKind.Formats .f32) (hacc : (0x00000000#32 : BitVec 32) = FKind.add.neutral .f32 hφ) (j : s11.Idx) :
    shapeCast s11 (multiReduction .add ax2 s1
        (shapeCast sR1 (multiReduction .add ax1 sR (shapeCast sRC X hc0) 0x00000000#32 h1 hφ hacc) hc1)
        0x00000000#32 h2 hφ hacc) hc2 j
      = ∑ i : s0.Idx, X i := by
  show multiReduction .add ax2 s1 _ 0x00000000#32 h2 hφ hacc (Shape.reshapeEquiv hc2 j) = _
  rw [Ideal.multiReduction_add_total _ _ h2 ht hφ hacc, sum_shapeCast, sum_multiReduction_add, sum_shapeCast]

/-- The same chain without the first reshape. -/
theorem total_chain' {sRC sR sR1 s1 s11 : Shape} (X : FVec Ideal sRC .f32)
    {ax1 : List (Fin sRC.rank)} (h1 : sRC.Reduces ax1 sR) (hc1 : sR.ShapeCasts sR1)
    {ax2 : List (Fin sR1.rank)} (h2 : sR1.Reduces ax2 s1) (ht : ∀ b, s1.size b = 1) (hc2 : s1.ShapeCasts s11)
    (hφ : FKind.Formats .f32) (hacc : (0x00000000#32 : BitVec 32) = FKind.add.neutral .f32 hφ) (j : s11.Idx) :
    shapeCast s11 (multiReduction .add ax2 s1
        (shapeCast sR1 (multiReduction .add ax1 sR X 0x00000000#32 h1 hφ hacc) hc1)
        0x00000000#32 h2 hφ hacc) hc2 j
      = ∑ i : sRC.Idx, X i := by
  show multiReduction .add ax2 s1 _ 0x00000000#32 h2 hφ hacc (Shape.reshapeEquiv hc2 j) = _
  rw [Ideal.multiReduction_add_total _ _ h2 ht hφ hacc, sum_shapeCast, sum_multiReduction_add]

end Cert.Bridge

end
-- ==== Proof.ElemSum.lean ====
/-
  The first call's totals are taken in two stages (along the columns of a [rows, columns] reshaping, then along the
  column of row sums); that such a staged total is the sum of the array over every index is in LibStagedTotal, which
  this module hands on together with the kernel's terms and the reference's stages.
-/
import proofs.«156140_j33363305955887_2_alg».proof.Proof.KDefs
import proofs.«156140_j33363305955887_2_alg».proof.Proof.Gen.ReferenceIdeal.Read
import proofs.«156140_j33363305955887_2_alg».proof.Proof.LibStagedTotal
import Idealize.ShloMosaic.PureOps.Ideal.Laws
import Idealize.ShloMosaic.Lib.Pipeline.Value
import Idealize.ShloMosaic.Lib.ValueIdx
-- ==== Proof.ElemTotal.lean ====
/-
  The first call's row of four totals, entry by entry: the row is four 1×1 pieces laid side by side, and entry
  (0, k) of it is piece k.
-/
import proofs.«156140_j33363305955887_2_alg».proof.Proof.ElemSum

noncomputable section

namespace Cert.Bridge

open Idealize.ShloMosaic Idealize.ShloMosaic.ValueIdx

/-- Four 1×1 pieces side by side: entry (0, k) of the row is piece k. -/
theorem row4_apply (p0 p1 p2 p3 : FVec Ideal ⟨2, ![1, 1]⟩ .f32)
    (h : Shape.Concatenates (([⟨⟨2, ![1, 1]⟩, p0⟩, ⟨⟨2, ![1, 1]⟩, p1⟩, ⟨⟨2, ![1, 1]⟩, p2⟩, ⟨⟨2, ![1, 1]⟩, p3⟩] :
      List ((s : Shape) × (s.Idx → Ideal .f32))).map (·.1)) ⟨2, ![1, 4]⟩ 1) :
    concatenate ⟨2, ![1, 4]⟩ 1 [⟨⟨2, ![1, 1]⟩, p0⟩, ⟨⟨2, ![1, 1]⟩, p1⟩, ⟨⟨2, ![1, 1]⟩, p2⟩, ⟨⟨2, ![1, 1]⟩, p3⟩] h
        (ix2 (0 : Fin 1) (0 : Fin 4)) = p0 (ix2 (0 : Fin 1) (0 : Fin 1))
    ∧ concatenate ⟨2, ![1, 4]⟩ 1 [⟨⟨2, ![1, 1]⟩, p0⟩, ⟨⟨2, ![1, 1]⟩, p1⟩, ⟨⟨2, ![1, 1]⟩, p2⟩, ⟨⟨2, ![1, 1]⟩, p3⟩] h
        (ix2 (0 : Fin 1) (1 : Fin 4)) = p1 (ix2 (0 : Fin 1) (0 : Fin 1))
    ∧ concatenate ⟨2, ![1, 4]⟩ 1 [⟨⟨2, ![1, 1]⟩, p0⟩, ⟨⟨2, ![1, 1]⟩, p1⟩, ⟨⟨2, ![1, 1]⟩, p2⟩, ⟨⟨2, ![1, 1]⟩, p3⟩] h
        (ix2 (0 : Fin 1) (2 : Fin 4)) = p2 (ix2 (0 : Fin 1) (0 : Fin 1))
    ∧ concatenate ⟨2, ![1, 4]⟩ 1 [⟨⟨2, ![1, 1]⟩, p0⟩, ⟨⟨2, ![1, 1]⟩, p1⟩, ⟨⟨2, ![1, 1]⟩, p2⟩, ⟨⟨2, ![1, 1]⟩, p3⟩] h
        (ix2 (0 : Fin 1) (3 : Fin 4)) = p3 (ix2 (0 : Fin 1) (0 : Fin 1)) := by
  have hi : ∀ (j : (⟨2, ![1, 4]⟩ : Shape).Idx) (b : Fin (⟨2, ![1, 1]⟩ : Shape).rank),
      b.cast (rfl : (⟨2, ![1, 1]⟩ : Shape).rank = (⟨2, ![1, 4]⟩ : Shape).rank) ≠ (1 : Fin 2) →
      ((ix2 (0 : Fin 1) (0 : Fin 1)) b).val = (j (b.cast rfl)).val := by
    intro j b hb
    match b with
    | ⟨0, _⟩ => exact (Nat.lt_one_iff.mp (j _).isLt).symm
    | ⟨1, _⟩ => exact absurd rfl hb
  refine ⟨?_, ?_, ?_, ?_⟩
  · exact concatenate_apply_piece 1 _ h _ 0 (by show (0 : Nat) < 4; omega) _ p0 rfl rfl 0 rfl _ (hi _) rfl
  · exact concatenate_apply_piece 1 _ h _ 1 (by show (1 : Nat) < 4; omega) _ p1 rfl rfl 1 rfl _ (hi _) rfl
  · exact concatenate_apply_piece 1 _ h _ 2 (by show (2 : Nat) < 4; omega) _ p2 rfl rfl 2 rfl _ (hi _) rfl
  · exact concatenate_apply_piece 1 _ h _ 3 (by show (3 : Nat) < 4; omega) _ p3 rfl rfl 3 rfl _ (hi _) rfl

end Cert.Bridge

end
-- ==== Proof.ElemMsum.lean ====
/-
  The third total of the first call is the reference's mask total: both are the sum of the mask
  (channel 1 of the label) over every position; the reference sums a [2, 96, 96] reshaping of it from
  the initial value zero.
-/
import proofs.«156140_j33363305955887_2_alg».proof.Proof.ElemTotal

noncomputable section

namespace Cert.Bridge

open Idealize.ShloMosaic Idealize.ShloMosaic.ValueIdx Cert.KernelIdeal Cert.KernelIdeal.Gen Cert.ReferenceIdeal.Read

/-- The one-element shape's axes have size one. -/
theorem S1_sizes (b : Fin S1.rank) : S1.size b = 1 := by
  match b with
  | ⟨0, _⟩ => rfl

/-- The kernel's mask is the reference's mask. -/
theorem mask_eq (x1 : Vec Ideal S2x2x96x96 .f32) : k0_pay3 x1 = val_main_v0 (F := Ideal) x1 := rfl

/-- The third total is the sum of the mask over every position. -/
theorem scalK_2 (x0 : Vec Ideal S2x4x96x96 .f32) (x1 : Vec Ideal S2x2x96x96 .f32) :
    scalK x0 x1 (ix2 (0 : Fin 1) (2 : Fin 4)) = ∑ i : S2x1x96x96.Idx, k0_pay3 x1 i := by
  unfold scalK k0_pay2
  refine ((row4_apply _ _ _ _ _).2.2.1).trans ?_
  exact total_chain (k0_pay3 x1) _ _ _ _ S1_sizes _ _ _ _

theorem msum_eq (x0 : Vec Ideal S2x4x96x96 .f32) (x1 : Vec Ideal S2x2x96x96 .f32) :
    scalK x0 x1 (ix2 (0 : Fin 1) (2 : Fin 4)) = val_main_v3 (F := Ideal) x1 ix0 := by
  rw [scalK_2, val_main_v3_apply]
  have hz : (val_main_cst (F := Ideal)) (Shape.Idx.first Cert.ReferenceIdeal.Gen.h_S_) = 0 := Ideal.ofBits_zero_f32
  rw [hz, zero_add]
  unfold val_main_v2
  rw [sum_shapeCast]
  rfl

end Cert.Bridge

end
-- ==== Proof.ElemDens.lean ====
/-
  The density: the square root of the sum over the four channels of the squared prediction. The
  kernel sums with a lane reduction and reshapes [2, 96, 96] to [2, 1, 96, 96]; the reference sums
  from the initial value zero and broadcasts along a new unit axis. A sum from zero is the sum, and
  the reshape and the broadcast read the same element.
-/
import proofs.«156140_j33363305955887_2_alg».proof.Proof.ElemMsum

noncomputable section

namespace Cert.Bridge

open Idealize.ShloMosaic Idealize.ShloMosaic.ValueIdx Cert.KernelIdeal Cert.KernelIdeal.Gen Cert.ReferenceIdeal.Read

/-- A host sum from an initial value that is zero is the kernel's sum over the same axes. -/
theorem hostReduceAdd_eq_multiReduction {s t u : Shape} {axes : List (Fin s.rank)} (Y : FVec Ideal s .f32)
    (init : u.Idx → Ideal .f32) (h' : s.ReducesTo axes t) (hu : 0 < u.numel)
    (hinit : init (Shape.Idx.first hu) = 0)
    (h : s.Reduces axes t) (hφ : FKind.Formats .f32) (hacc : (0x00000000#32 : BitVec 32) = FKind.add.neutral .f32 hφ) :
    Host.reduceAdd Y init h' hu = multiReduction .add axes t Y 0x00000000#32 h hφ hacc := by
  funext j
  show Ideal.hostReduceAdd h' Y (init (Shape.Idx.first hu)) j = Ideal.reduceAdd h Y j
  unfold Ideal.hostReduceAdd Ideal.reduceAdd
  rw [hinit, zero_add, Shape.ReducesTo.drop_eq_drop h' h]

/-- A [2, 96, 96] array reshaped to [2, 1, 96, 96] reads (b, 0, h, w) at (b, h, w). -/
theorem cast3to4_apply (Z : S2x96x96.Idx → EReal) (hc : S2x96x96.ShapeCasts S2x1x96x96) (j : S2x1x96x96.Idx) :
    shapeCast S2x1x96x96 Z hc j = Z (idx_main_v7 j) := by
  refine shapeCast_apply Z hc j (idx_main_v7 j) ?_
  rw [Shape.rowMajor_val_three, Shape.rowMajor_val_four]
  have h1 : (j 1).val < 1 := (j 1).isLt
  show ((j 0).val * 96 + (j 2).val) * 96 + (j 3).val = (((j 0).val * 1 + (j 1).val) * 96 + (j 2).val) * 96 + (j 3).val
  omega

/-- The kernel's density is the reference's. -/
theorem dens_eq (x0 : Vec Ideal S2x4x96x96 .f32) : k0_pay4 x0 = val_main_v8 (F := Ideal) x0 := by
  funext j
  rw [val_main_v8_apply, val_main_v7_apply]
  unfold k0_pay4
  show FloatOps.sqrt (shapeCast S2x1x96x96 _ _ j) = FloatOps.hostUnary .sqrt _
  rw [cast3to4_apply]
  refine congrArg Ideal.sqrt (congrFun ?_ (idx_main_v7 j))
  exact (hostReduceAdd_eq_multiReduction (mulf x0 x0) _ _ _ Ideal.ofBits_zero_f32 _ _ _).symm

end Cert.Bridge

end
-- ==== Proof.ElemDen.lean ====
/-
  The first total of the first call is the reference's masked smooth-L1 total: both sum, over every
  position, mask · (if d < 1 then ½·d·d else d − ½) with d = |density − target|.
-/
import proofs.«156140_j33363305955887_2_alg».proof.Proof.ElemDens

noncomputable section

namespace Cert.Bridge

open Idealize.ShloMosaic Idealize.ShloMosaic.ValueIdx Cert.KernelIdeal Cert.KernelIdeal.Gen Cert.ReferenceIdeal.Read

/-- The first total is the sum of the reference's masked smooth-L1 array over every position. -/
theorem scalK_0 (x0 : Vec Ideal S2x4x96x96 .f32) (x1 : Vec Ideal S2x2x96x96 .f32) :
    scalK x0 x1 (ix2 (0 : Fin 1) (0 : Fin 4)) = ∑ i : S2x1x96x96.Idx, val_main_v20 (F := Ideal) x0 x1 i := by
  unfold scalK k0_pay2
  refine ((row4_apply _ _ _ _ _).1).trans ?_
  unfold k0_pay5
  refine (total_chain _ _ _ _ _ S1_sizes _ _ _ _).trans ?_
  refine Finset.sum_congr rfl (fun i _ => ?_)
  rw [dens_eq x0]
  rfl

theorem den_eq (x0 : Vec Ideal S2x4x96x96 .f32) (x1 : Vec Ideal S2x2x96x96 .f32) :
    scalK x0 x1 (ix2 (0 : Fin 1) (0 : Fin 4)) = val_main_v21 (F := Ideal) x0 x1 ix0 := by
  rw [scalK_0, val_main_v21_apply]
  have hz : (val_main_cst_5 (F := Ideal)) (Shape.Idx.first Cert.ReferenceIdeal.Gen.h_S_) = 0 := Ideal.ofBits_zero_f32
  rw [hz, zero_add]

end Cert.Bridge

end
-- ==== Proof.ElemDiv.lean ====
/-
  The diversity array, the masked averaged tags and the squared deviation. The kernel broadcasts a
  [2, 1, 96, 96] array along its unit axis to [2, 4, 96, 96]; the reference does the same with an
  explicit axis map; both read (b, 0, h, w) at (b, c, h, w).
-/
import proofs.«156140_j33363305955887_2_alg».proof.Proof.ElemDens

noncomputable section

namespace Cert.Bridge

open Idealize.ShloMosaic Idealize.ShloMosaic.ValueIdx Cert.KernelIdeal Cert.KernelIdeal.Gen Cert.ReferenceIdeal.Read

/-- A [2, 1, 96, 96] array broadcast to [2, 4, 96, 96] reads (b, c, h, w) at (b, 0, h, w). -/
theorem bcast14_apply {α : Type} (Z : S2x1x96x96.Idx → α) (hb : S2x1x96x96.Broadcasts S2x4x96x96) (j : S2x4x96x96.Idx) :
    broadcastTo S2x4x96x96 Z hb j = Z (idx_main_v26 j) := by
  refine broadcastTo_apply Z hb j (idx_main_v26 j) (fun a => ?_)
  match a with
  | ⟨0, _⟩ => show (j 0).val = if (2 : Nat) = 1 then 0 else (j 0).val; rw [if_neg (by decide)]
  | ⟨1, _⟩ => show 0 = if (1 : Nat) = 1 then 0 else (j 1).val; rw [if_pos rfl]
  | ⟨2, _⟩ => show (j 2).val = if (96 : Nat) = 1 then 0 else (j 2).val; rw [if_neg (by decide)]
  | ⟨3, _⟩ => show (j 3).val = if (96 : Nat) = 1 then 0 else (j 3).val; rw [if_neg (by decide)]

/-- The kernel's diversity array (prediction / (density + ε)) · mask is the reference's. -/
theorem div_eq (x0 : Vec Ideal S2x4x96x96 .f32) (x1 : Vec Ideal S2x2x96x96 .f32) :
    k0_pay6 x0 x1 = val_main_v29 (F := Ideal) x0 x1 := by
  funext j
  unfold k0_pay6
  rw [dens_eq x0, val_main_v29_apply, val_main_v27_apply, val_main_v28_apply, val_main_v26_apply]
  rw [mulf_apply, divf_apply, bcast14_apply, bcast14_apply]
  rfl

/-- The kernel's masked averaged tags (Σ_c diversity) · ¼ · mask are the reference's. -/
theorem aver_eq (x0 : Vec Ideal S2x4x96x96 .f32) (x1 : Vec Ideal S2x2x96x96 .f32) :
    k0_pay7 x0 x1 = val_main_v34 (F := Ideal) x0 x1 := by
  funext j
  unfold k0_pay7
  rw [div_eq x0 x1, val_main_v34_apply, val_main_v33_apply, val_main_v31_apply]
  rw [mulf_apply, mulf_apply, cast3to4_apply]
  have hs := hostReduceAdd_eq_multiReduction (val_main_v29 (F := Ideal) x0 x1) (val_main_cst_8 (F := Ideal))
    Cert.ReferenceIdeal.Gen.reducesTo_S2x4x96x96_S2x96x96_d1 Cert.ReferenceIdeal.Gen.h_S_ Ideal.ofBits_zero_f32
    reduces_S2x4x96x96_S2x96x96 (.inl rfl) rfl
  rw [← hs]
  rfl

/-- The kernel's squared deviation (diversity − averaged tags)² is the reference's. -/
theorem sq_eq (x0 : Vec Ideal S2x4x96x96 .f32) (x1 : Vec Ideal S2x2x96x96 .f32) (j : S2x4x96x96.Idx) :
    (mulf (subf (k0_pay6 x0 x1) (broadcastTo S2x4x96x96 (k0_pay7 x0 x1) broadcasts_S2x1x96x96_S2x4x96x96))
        (subf (k0_pay6 x0 x1) (broadcastTo S2x4x96x96 (k0_pay7 x0 x1) broadcasts_S2x1x96x96_S2x4x96x96))) j
      = val_main_v37 (F := Ideal) x0 x1 j := by
  rw [div_eq x0 x1, aver_eq x0 x1, val_main_v37_apply, val_main_v36_apply, val_main_v35_apply]
  rw [mulf_apply, subf_apply, bcast14_apply]
  rfl

end Cert.Bridge

end
-- ==== Proof.ElemPull.lean ====
/-
  The second total of the first call is the reference's pull total: both sum the squared deviation
  (diversity − averaged tags)² over every channel and position.
-/
import proofs.«156140_j33363305955887_2_alg».proof.Proof.ElemDiv

noncomputable section

namespace Cert.Bridge

open Idealize.ShloMosaic Idealize.ShloMosaic.ValueIdx Cert.KernelIdeal Cert.KernelIdeal.Gen Cert.ReferenceIdeal.Read

/-- The second total is the sum of the reference's squared deviation over every index. -/
theorem scalK_1 (x0 : Vec Ideal S2x4x96x96 .f32) (x1 : Vec Ideal S2x2x96x96 .f32) :
    scalK x0 x1 (ix2 (0 : Fin 1) (1 : Fin 4)) = ∑ i : S2x4x96x96.Idx, val_main_v37 (F := Ideal) x0 x1 i := by
  unfold scalK k0_pay2
  refine ((row4_apply _ _ _ _ _).2.1).trans ?_
  unfold k0_pay8
  refine (total_chain _ _ _ _ _ S1_sizes _ _ _ _).trans ?_
  exact Finset.sum_congr rfl (fun i _ => sq_eq x0 x1 i)

theorem pull_eq (x0 : Vec Ideal S2x4x96x96 .f32) (x1 : Vec Ideal S2x2x96x96 .f32) :
    scalK x0 x1 (ix2 (0 : Fin 1) (1 : Fin 4)) = val_main_v38 (F := Ideal) x0 x1 ix0 := by
  rw [scalK_1, val_main_v38_apply]
  have hz : (val_main_cst_10 (F := Ideal)) (Shape.Idx.first Cert.ReferenceIdeal.Gen.h_S_) = 0 := Ideal.ofBits_zero_f32
  rw [hz, zero_add]

end Cert.Bridge

end
-- ==== Proof.ElemFlat.lean ====
/-
  The masked averaged tags, flattened to [2, 9216]. The kernel multiplies at [2, 1, 96, 96] and
  reshapes once; the reference reshapes both factors to [2, 96, 96], multiplies, and reshapes again.
  Reshapes compose by row-major position, so both read the same element of each factor.
-/
import proofs.«156140_j33363305955887_2_alg».proof.Proof.ElemDiv

noncomputable section

namespace Cert.Bridge

open Idealize.ShloMosaic Idealize.ShloMosaic.ValueIdx Cert.KernelIdeal Cert.KernelIdeal.Gen Cert.ReferenceIdeal.Read

theorem aFlat_eq (x0 : Vec Ideal S2x4x96x96 .f32) (x1 : Vec Ideal S2x2x96x96 .f32) :
    aFlatK x0 x1 = val_main_v43 (F := Ideal) x0 x1 := by
  funext j
  have e : ∀ (hA : S2x1x96x96.ShapeCasts S2x96x96) (hB : S2x96x96.ShapeCasts S2x9216) (hC : S2x1x96x96.ShapeCasts S2x9216),
      Shape.reshapeEquiv hA (Shape.reshapeEquiv hB j) = Shape.reshapeEquiv hC j :=
    fun hA hB hC => Shape.reshapeEquiv_reshapeEquiv hA hB j
  show k0_pay7 x0 x1 (Shape.reshapeEquiv shapeCasts_S2x1x96x96_S2x9216 j) * k0_pay3 x1 (Shape.reshapeEquiv shapeCasts_S2x1x96x96_S2x9216 j)
    = val_main_v34 (F := Ideal) x0 x1 (Shape.reshapeEquiv _ (Shape.reshapeEquiv _ j))
      * val_main_v0 (F := Ideal) x1 (Shape.reshapeEquiv _ (Shape.reshapeEquiv _ j))
  rw [e _ _ shapeCasts_S2x1x96x96_S2x9216, aver_eq]
  rfl

end Cert.Bridge

end
-- ==== Proof.ElemNz.lean ====
/-
  The fourth total of the first call is the reference's count of nonzero masked averaged tags. The
  kernel marks a ≠ 0 with an ordered comparison, widens the bit and converts it as a signed integer;
  the reference compares unordered and converts the bit as an unsigned one. Over the extended reals
  nothing is unordered, and the bit 0 or 1 is the same number read either way. The reference counts
  over the [2, 9216] flattening, which re-indexes the [2, 1, 96, 96] positions bijectively.
-/
import proofs.«156140_j33363305955887_2_alg».proof.Proof.ElemFlat

noncomputable section

namespace Cert.Bridge

open Idealize.ShloMosaic Idealize.ShloMosaic.ValueIdx Cert.KernelIdeal Cert.KernelIdeal.Gen Cert.ReferenceIdeal.Read

/-- One bit widened to 32 and read signed is the bit read unsigned. -/
theorem nzbit (b : BitVec 1) : (((b.setWidth 32).toInt : ℝ) : EReal) = ((b.toNat : ℝ) : EReal) := by
  rcases BitVec.eq_zero_or_eq_one b with rfl | rfl
  · have h1 : ((0#1 : BitVec 1).setWidth 32).toInt = 0 := by decide
    have h2 : (0#1 : BitVec 1).toNat = 0 := by decide
    rw [h1, h2]; simp
  · have h1 : ((1#1 : BitVec 1).setWidth 32).toInt = 1 := by decide
    have h2 : (1#1 : BitVec 1).toNat = 1 := by decide
    rw [h1, h2]; simp

/-- The two spellings of "a ≠ z as 0 or 1" agree. -/
theorem nz_scalar (a z : Ideal .f32) :
    FloatOps.sitofp (F := Ideal) .f32 ((FloatOps.cmpf .one a z).setWidth 32)
      = FloatOps.uitofp (F := Ideal) .f32 (FloatOps.cmpf .une a z) :=
  nzbit _

/-- "a ≠ 0" as the number 0 or 1, in the reference's spelling. -/
def nzR (a : Ideal .f32) : Ideal .f32 :=
  FloatOps.uitofp (F := Ideal) .f32 (FloatOps.cmpf (F := Ideal) .une a (FloatOps.ofBits (F := Ideal) .f32 0x00000000#32))

/-- The reference's indicator array is the flattening of the indicator of the kernel's tags. -/
theorem ind_eq (x0 : Vec Ideal S2x4x96x96 .f32) (x1 : Vec Ideal S2x2x96x96 .f32) :
    val_main_v46 (F := Ideal) x0 x1
      = shapeCast S2x9216 (fun i => nzR (aK x0 x1 i)) shapeCasts_S2x1x96x96_S2x9216 := by
  funext j
  rw [val_main_v46_apply, val_main_v45_apply, ← aFlat_eq]
  rfl

/-- The fourth total is the sum of the indicator of the kernel's tags over every position. -/
theorem scalK_3 (x0 : Vec Ideal S2x4x96x96 .f32) (x1 : Vec Ideal S2x2x96x96 .f32) :
    scalK x0 x1 (ix2 (0 : Fin 1) (3 : Fin 4))
      = ∑ i : S2x1x96x96.Idx, nzR (aK x0 x1 i) := by
  unfold scalK k0_pay2
  refine ((row4_apply _ _ _ _ _).2.2.2).trans ?_
  refine (total_chain _ _ _ _ _ S1_sizes _ _ _ _).trans ?_
  refine Finset.sum_congr rfl (fun i _ => ?_)
  exact nz_scalar (aK x0 x1 i) (FloatOps.ofBits (F := Ideal) .f32 0x00000000#32)

theorem nz_eq (x0 : Vec Ideal S2x4x96x96 .f32) (x1 : Vec Ideal S2x2x96x96 .f32) :
    scalK x0 x1 (ix2 (0 : Fin 1) (3 : Fin 4)) = val_main_v63 (F := Ideal) x0 x1 ix0 := by
  rw [scalK_3, val_main_v63_apply]
  have hz : (val_main_cst_14 (F := Ideal)) (Shape.Idx.first Cert.ReferenceIdeal.Gen.h_S_) = 0 := Ideal.ofBits_zero_f32
  rw [hz, zero_add, ind_eq, sum_shapeCast]

end Cert.Bridge

end
-- ==== Proof.ElemAll.lean ====
/-
  The first call's results equal the reference's stages: the flattened masked averaged tags and the
  four totals (masked smooth-L1, pull, mask, nonzero count).
-/
import proofs.«156140_j33363305955887_2_alg».proof.Proof.ElemMsum
import proofs.«156140_j33363305955887_2_alg».proof.Proof.ElemDen
import proofs.«156140_j33363305955887_2_alg».proof.Proof.ElemPull
import proofs.«156140_j33363305955887_2_alg».proof.Proof.ElemFlat
import proofs.«156140_j33363305955887_2_alg».proof.Proof.ElemNz
-- ==== Proof.PushPair.lean ====
/-
  One pair's term, as a function of two extended reals: nz(a) · nz(b) · max(1 − |a − b|, 0), where nz is the
  0/1 indicator of "not zero". The kernel writes the indicator as an ordered "not equal" compare, widened to
  32 bits and read as a signed integer; the reference writes it as an unordered "not equal" compare read as an
  unsigned integer. Over the extended reals nothing is unordered, and the one-bit word is 0 or 1 either way,
  so both are the same indicator. The constant 1 is kept as the word both programs write.
-/
import proofs.«156140_j33363305955887_2_alg».proof.Proof.KDefs
import Idealize.ShloMosaic.PureOps.Ideal.Laws

noncomputable section

namespace Cert.Bridge

open Idealize.ShloMosaic

/-- The indicator of "not zero". -/
def nz (a : EReal) : EReal := if a = 0 then 0 else 1

/-- One pair's term. -/
def pair (a b : EReal) : EReal :=
  nz a * nz b * max (Ideal.ofBits .f32 0x3F800000#32 - max (a - b) (-(a - b))) 0

/-- The kernel's indicator: ordered compare against the zero word, widened, read signed. -/
theorem nz_kernel (a : Ideal .f32) :
    FloatOps.sitofp (F := Ideal) .f32
      ((FloatOps.cmpf .one a (Scalar.ofBits (F := Ideal) .f32 0x00000000#32)).setWidth 32) = nz a := by
  have hz : Scalar.ofBits (F := Ideal) .f32 0x00000000#32 = (0 : EReal) := Ideal.ofBits_zero_f32
  rw [hz]
  show (((BitVec.setWidth 32 (Ideal.cmp .one a 0)).toInt : ℝ) : EReal) = nz a
  unfold Ideal.cmp nz
  by_cases h : a = 0
  · simp [h]
  · simp [h]

/-- The reference's indicator: unordered compare against the zero word, read unsigned. -/
theorem nz_ref (a : Ideal .f32) :
    FloatOps.uitofp (F := Ideal) .f32
      (FloatOps.cmpf .une a (FloatOps.ofBits (F := Ideal) .f32 0x00000000#32)) = nz a := by
  have hz : FloatOps.ofBits (F := Ideal) .f32 0x00000000#32 = (0 : EReal) := Ideal.ofBits_zero_f32
  rw [hz]
  show (((Ideal.cmp .une a 0).toNat : ℝ) : EReal) = nz a
  unfold Ideal.cmp nz
  by_cases h : a = 0
  · simp [h]
  · simp [h]

/-- The kernel's term for one pair. -/
theorem pair_kernel (a b : Ideal .f32) :
    FloatOps.sitofp (F := Ideal) .f32
        ((FloatOps.cmpf .one a (Scalar.ofBits (F := Ideal) .f32 0x00000000#32)).setWidth 32)
      * FloatOps.sitofp (F := Ideal) .f32
        ((FloatOps.cmpf .one b (Scalar.ofBits (F := Ideal) .f32 0x00000000#32)).setWidth 32)
      * max (Scalar.ofBits (F := Ideal) .f32 0x3F800000#32 - FloatOps.absf (a - b))
          (Scalar.ofBits (F := Ideal) .f32 0x00000000#32)
      = pair a b := by
  rw [nz_kernel, nz_kernel]
  have hz : Scalar.ofBits (F := Ideal) .f32 0x00000000#32 = (0 : EReal) := Ideal.ofBits_zero_f32
  rw [hz]
  rfl

/-- The reference's term for one pair. -/
theorem pair_ref (a b : Ideal .f32) :
    FloatOps.mulf
        (FloatOps.mulf
          (FloatOps.uitofp (F := Ideal) .f32 (FloatOps.cmpf .une a (FloatOps.ofBits (F := Ideal) .f32 0x00000000#32)))
          (FloatOps.uitofp (F := Ideal) .f32 (FloatOps.cmpf .une b (FloatOps.ofBits (F := Ideal) .f32 0x00000000#32))))
        (FloatOps.maximumf
          (FloatOps.subf (FloatOps.ofBits (F := Ideal) .f32 0x3F800000#32) (FloatOps.hostAbsf (FloatOps.subf a b)))
          (FloatOps.ofBits (F := Ideal) .f32 0x00000000#32))
      = pair a b := by
  rw [nz_ref, nz_ref]
  have hz : FloatOps.ofBits (F := Ideal) .f32 0x00000000#32 = (0 : EReal) := Ideal.ofBits_zero_f32
  rw [hz]
  rfl

end Cert.Bridge

end
-- ==== Proof.PushSum.lean ====
/-
  Sums, reindexed. A sum over T·B consecutive positions is the sum over T tiles of the sum over the B positions
  of each tile; a sum over a rank-3 index set is the triple sum over its coordinates; and a sum over the first
  T·T naturals of a function of (n / T % T, n % T) is the double sum over the T × T grid. All in a commutative
  additive monoid, so no finiteness of the terms is asked.
-/
import Idealize.ShloMosaic.Lib.ValueIdx

noncomputable section

open scoped BigOperators

namespace Cert.Bridge

open Idealize.ShloMosaic Idealize.ShloMosaic.ValueIdx

/-- Position j of tile t lies below the total length. -/
theorem tile_lt {T B N : ℕ} (h : T * B = N) (t : Fin T) (j : Fin B) : B * t.val + j.val < N := by
  have h1 : B * t.val + j.val < B * (t.val + 1) := by
    rw [Nat.mul_succ]; have := j.isLt; omega
  have h2 : B * (t.val + 1) ≤ B * T := Nat.mul_le_mul_left _ (Nat.succ_le_of_lt t.isLt)
  have h3 : B * T = N := by rw [Nat.mul_comm]; exact h
  omega

/-- A sum over N = T·B positions, tile by tile. -/
theorem sum_tiles {M : Type*} [AddCommMonoid M] (T B N : ℕ) (h : T * B = N) (f : Fin N → M) :
    ∑ i : Fin N, f i = ∑ t : Fin T, ∑ j : Fin B, f ⟨B * t.val + j.val, tile_lt h t j⟩ := by
  subst h
  rw [← Equiv.sum_comp finProdFinEquiv f, Fintype.sum_prod_type]
  refine Finset.sum_congr rfl fun t _ => Finset.sum_congr rfl fun j _ => congrArg f (Fin.ext ?_)
  show j.val + B * t.val = B * t.val + j.val
  exact Nat.add_comm _ _

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The first T·T naturals, read as the T × T grid row by row. -/
theorem sum_range_grid {M : Type*} [AddCommMonoid M] (T : ℕ) (hT : 0 < T) (g : Fin T → Fin T → M) :
    ∑ n ∈ Finset.range (T * T), g ⟨n / T % T, Nat.mod_lt _ hT⟩ ⟨n % T, Nat.mod_lt _ hT⟩
      = ∑ i : Fin T, ∑ j : Fin T, g i j := by
  rw [Finset.sum_range, sum_tiles T T (T * T) rfl]
  refine Finset.sum_congr rfl fun i _ => Finset.sum_congr rfl fun j _ => ?_
  have h1 : (T * i.val + j.val) / T = i.val := by
    rw [Nat.mul_add_div hT, Nat.div_eq_of_lt j.isLt, Nat.add_zero]
  have h2 : (T * i.val + j.val) % T = j.val := by
    rw [Nat.mul_add_mod, Nat.mod_eq_of_lt j.isLt]
  have h3 : (T * i.val + j.val) / T % T = i.val := by
    rw [h1, Nat.mod_eq_of_lt i.isLt]
  exact congrArg₂ g (Fin.ext h3) (Fin.ext h2)

end Cert.Bridge

end
-- ==== Proof.PushLay.lean ====
/-
  The second call's layout steps and its two-stage sum, each read at an index built from coordinates.
  A [2, 768] array viewed as [2, 768, 1] and repeated along the last axis reads (b, p) at (b, p, q); viewed as
  [2, 1, 768] and repeated along the middle axis it reads (b, q). The [2, 768, 768] product array viewed as
  [1536, 768] has row 768·b + p equal to row p of batch b. A sum along the columns of [1536, 768] is the sum
  over the 768 columns of a row; the sum of the resulting [1536, 1] column is the sum over the 1536 rows.
-/
import proofs.«156140_j33363305955887_2_alg».proof.Proof.PushPair
import proofs.«156140_j33363305955887_2_alg».proof.Proof.PushSum
import Idealize.ShloMosaic.Lib.Pipeline.Value

noncomputable section

open scoped BigOperators

namespace Cert.Bridge

open Idealize.ShloMosaic Idealize.ShloMosaic.ValueIdx Cert.KernelIdeal Cert.KernelIdeal.Gen

section Layout
variable {α : Type}

theorem cast_1_1x1 (u : S1.Idx → α) (hc : S1.ShapeCasts S1x1) :
    shapeCast S1x1 u hc (ix2 (0 : Fin 1) (0 : Fin 1)) = u (ix1 (0 : Fin 1)) :=
  shapeCast_apply u hc _ _ (by rw [Shape.rowMajor_val_one, Shape.rowMajor_val_two]; rfl)

theorem cast_1536_1536x1 (u : S1536.Idx → α) (hc : S1536.ShapeCasts S1536x1) (r : Fin 1536) :
    shapeCast S1536x1 u hc (ix2 r (0 : Fin 1)) = u (ix1 r) :=
  shapeCast_apply u hc _ _ (by
    rw [Shape.rowMajor_val_one, Shape.rowMajor_val_two]
    show r.val = r.val * 1 + 0
    omega)

theorem cast_2x768x768_1536x768 (V : S2x768x768.Idx → α) (hc : S2x768x768.ShapeCasts S1536x768)
    (b : Fin 2) (p q : Fin 768) (hlt : 768 * b.val + p.val < 1536) :
    shapeCast S1536x768 V hc (ix2 (⟨768 * b.val + p.val, hlt⟩ : Fin 1536) q) = V (ix3 b p q) :=
  shapeCast_apply V hc _ _ (by
    rw [Shape.rowMajor_val_three, Shape.rowMajor_val_two]
    show (b.val * 768 + p.val) * 768 + q.val = (768 * b.val + p.val) * 768 + q.val
    omega)

theorem col_bcast (v : S2x768.Idx → α) (hc : S2x768.ShapeCasts S2x768x1) (hb : S2x768x1.Broadcasts S2x768x768)
    (b : Fin 2) (p q : Fin 768) :
    broadcastTo S2x768x768 (shapeCast S2x768x1 v hc) hb (ix3 b p q) = v (ix2 b p) := by
  refine (broadcastTo_apply _ hb (ix3 b p q) (ix3 b p (0 : Fin 1)) fun a => ?_).trans ?_
  · match a with
    | ⟨0, _⟩ => rfl
    | ⟨1, _⟩ => rfl
    | ⟨2, _⟩ => rfl
  · exact shapeCast_apply v hc _ _ (by
      rw [Shape.rowMajor_val_three, Shape.rowMajor_val_two]
      show b.val * 768 + p.val = (b.val * 768 + p.val) * 1 + 0
      omega)

theorem row_bcast (v : S2x768.Idx → α) (hc : S2x768.ShapeCasts S2x1x768) (hb : S2x1x768.Broadcasts S2x768x768)
    (b : Fin 2) (p q : Fin 768) :
    broadcastTo S2x768x768 (shapeCast S2x1x768 v hc) hb (ix3 b p q) = v (ix2 b q) := by
  refine (broadcastTo_apply _ hb (ix3 b p q) (ix3 b (0 : Fin 1) q) fun a => ?_).trans ?_
  · match a with
    | ⟨0, _⟩ => rfl
    | ⟨1, _⟩ => rfl
    | ⟨2, _⟩ => rfl
  · exact shapeCast_apply v hc _ _ (by
      rw [Shape.rowMajor_val_three, Shape.rowMajor_val_two]
      show b.val * 768 + q.val = (b.val * 1 + 0) * 768 + q.val
      omega)

end Layout

theorem row_sum (v : FVec Ideal S1536x768 .f32) (h : S1536x768.Reduces [1] S1536) (hφ : FKind.Formats .f32)
    (hacc : (0x00000000#32 : BitVec 32) = 0x00000000#32) (r : Fin 1536) :
    multiReduction .add [1] S1536 v 0x00000000#32 h hφ hacc (ix1 r) = ∑ c : Fin 768, v (ix2 r c) := by
  refine (Ideal.multiReduction_add_single v 0x00000000#32 h hφ hacc (ix1 r)).trans ?_
  refine Finset.sum_congr rfl fun c _ => congrArg v ?_
  funext a
  match a with
  | ⟨0, _⟩ => rfl
  | ⟨1, _⟩ => rfl

theorem col_sum (w : FVec Ideal S1536x1 .f32) (h : S1536x1.Reduces [0] S1) (hφ : FKind.Formats .f32)
    (hacc : (0x00000000#32 : BitVec 32) = 0x00000000#32) :
    multiReduction .add [0] S1 w 0x00000000#32 h hφ hacc (ix1 (0 : Fin 1)) = ∑ r : Fin 1536, w (ix2 r (0 : Fin 1)) := by
  refine (Ideal.multiReduction_add_single w 0x00000000#32 h hφ hacc (ix1 (0 : Fin 1))).trans ?_
  refine Finset.sum_congr rfl fun r _ => congrArg w ?_
  funext a
  match a with
  | ⟨0, _⟩ => rfl
  | ⟨1, _⟩ => rfl

end Cert.Bridge

end
-- ==== Proof.PushTile.lean ====
/-
  One grid point of the second call. From two [2, 768] tiles bi, bj and the running total it returns the running
  total plus the sum, over the batch b and the positions p of bi and q of bj, of the pair term
  nz(bi b p) · nz(bj b q) · max(1 − |bi b p − bj b q|, 0): the [2, 768, 768] product array is viewed as
  [1536, 768], summed along its columns and then along its rows, and row 768·b + p is row p of batch b.
-/
import proofs.«156140_j33363305955887_2_alg».proof.Proof.PushLay

noncomputable section

open scoped BigOperators

namespace Cert.Bridge

open Idealize.ShloMosaic Idealize.ShloMosaic.ValueIdx Cert.KernelIdeal Cert.KernelIdeal.Gen

/-- An absolute value at an index is the absolute value of the element. -/
theorem absf_apply' {s : Shape} {φ : FTy} (a : FVec Ideal s φ) (i : s.Idx) : absf a i = FloatOps.absf (a i) := rfl

/-- The grid point's payload at its one index. -/
theorem k1_pay2_eq (bi bj : Vec Ideal S2x768 .f32) (prev : Vec Ideal S1x1 .f32) :
    k1_pay2 bi bj prev (ix2 (0 : Fin 1) (0 : Fin 1))
      = prev (ix2 (0 : Fin 1) (0 : Fin 1))
        + ∑ b : Fin 2, ∑ p : Fin 768, ∑ q : Fin 768, pair (bi (ix2 b p)) (bj (ix2 b q)) := by
  unfold k1_pay2
  refine (addf_apply _ _ _).trans ?_
  refine congrArg₂ (· + ·) (congrFun (shapeCast_self prev _) _) ?_
  refine (cast_1_1x1 _ _).trans ?_
  refine (col_sum _ _ _ _).trans ?_
  refine (Finset.sum_congr rfl fun r _ => (cast_1536_1536x1 _ _ r).trans (row_sum _ _ _ _ r)).trans ?_
  refine (sum_tiles 2 768 1536 rfl _).trans ?_
  refine Finset.sum_congr rfl fun b _ => Finset.sum_congr rfl fun p _ => Finset.sum_congr rfl fun q _ => ?_
  refine (cast_2x768x768_1536x768 _ _ b p q _).trans ?_
  simp only [mulf_apply, maximumf_apply, subf_apply, absf_apply', col_bcast, row_bcast, broadcast_apply,
    sitofp_apply, extui_apply, cmpf_apply, shapeCast_self]
  exact pair_kernel _ _

end Cert.Bridge

end
-- ==== Proof.PushRef.lean ====
/-
  The reference's all-pairs total. Its last stage sums, over every (b, P, Q) of [2, 9216, 9216], the product
  nz(A b P) · nz(A b Q) · max(1 − |A b P − A b Q|, 0), where A is the flattened array of masked averaged tags;
  the stages between A and that product are broadcasts along a new axis and elementwise operations, so each
  element reads A at (b, P) and at (b, Q). The initial value of the sum is the zero word.
-/
import proofs.«156140_j33363305955887_2_alg».proof.Proof.PushPair
import proofs.«156140_j33363305955887_2_alg».proof.Proof.PushSum
import proofs.«156140_j33363305955887_2_alg».proof.Proof.Gen.ReferenceIdeal.Read

noncomputable section

open scoped BigOperators

namespace Cert.Bridge

open Idealize.ShloMosaic Idealize.ShloMosaic.ValueIdx Cert.ReferenceIdeal Cert.ReferenceIdeal.Read

/-- One element of the reference's [2, 9216, 9216] product array. -/
theorem ref_pair (x0 : Vec Ideal Cert.ReferenceIdeal.S2x4x96x96 .f32) (x1 : Vec Ideal Cert.ReferenceIdeal.S2x2x96x96 .f32)
    (b : Fin 2) (p q : Fin 9216) :
    val_main_v61 (F := Ideal) x0 x1 (ix3 b p q)
      = pair (val_main_v43 (F := Ideal) x0 x1 (ix2 b p)) (val_main_v43 (F := Ideal) x0 x1 (ix2 b q)) := by
  have i1 : idx_main_v56 (idx_main_v58 (ix3 b p q)) = ix2 b p := by
    funext a; match a with | ⟨0, _⟩ => rfl | ⟨1, _⟩ => rfl
  have i2 : idx_main_v57 (idx_main_v59 (ix3 b p q)) = ix2 b q := by
    funext a; match a with | ⟨0, _⟩ => rfl | ⟨1, _⟩ => rfl
  have i3 : idx_main_v47 (idx_main_v49 (ix3 b p q)) = ix2 b p := by
    funext a; match a with | ⟨0, _⟩ => rfl | ⟨1, _⟩ => rfl
  have i4 : idx_main_v48 (idx_main_v50 (ix3 b p q)) = ix2 b q := by
    funext a; match a with | ⟨0, _⟩ => rfl | ⟨1, _⟩ => rfl
  simp only [val_main_v61_apply, val_main_v60_apply, val_main_v58_apply, val_main_v56_apply, val_main_v59_apply,
    val_main_v57_apply, val_main_v46_apply, val_main_v45_apply, val_main_v44_apply, val_main_cst_11_apply,
    val_main_v55_apply, val_main_v54_apply, val_main_v53_apply, val_main_cst_12_apply, val_main_v52_apply,
    val_main_v51_apply, val_main_v49_apply, val_main_v47_apply, val_main_v50_apply, val_main_v48_apply,
    val_main_call1_v0_apply, val_main_call1_cst_apply, i1, i2, i3, i4]
  exact pair_ref _ _

/-- The reference's total, as the triple sum over the coordinates. -/
theorem ref_total (x0 : Vec Ideal Cert.ReferenceIdeal.S2x4x96x96 .f32) (x1 : Vec Ideal Cert.ReferenceIdeal.S2x2x96x96 .f32) :
    val_main_v62 (F := Ideal) x0 x1 ix0
      = ∑ b : Fin 2, ∑ P : Fin 9216, ∑ Q : Fin 9216,
          pair (val_main_v43 (F := Ideal) x0 x1 (ix2 b P)) (val_main_v43 (F := Ideal) x0 x1 (ix2 b Q)) := by
  rw [val_main_v62_apply, val_main_cst_13_apply]
  show Ideal.ofBits .f32 0x00000000#32 + _ = _
  rw [Ideal.ofBits_zero_f32, zero_add]
  refine (sum_idx3 (n0 := 2) (n1 := 9216) (n2 := 9216) _).trans ?_
  exact Finset.sum_congr rfl fun b _ => Finset.sum_congr rfl fun P _ => Finset.sum_congr rfl fun Q _ =>
    ref_pair x0 x1 b P Q

end Cert.Bridge

end
-- ==== Proof.PushAll.lean ====
/-
  The second call's accumulated total is the reference's all-pairs sum. The call visits the 12 × 12 grid of pairs
  of 768-column tiles of the flattened array A : [2, 9216] row by row, starting from zero and adding at point
  (i, j) the pair terms of tile i against tile j; so after all 144 points it holds the sum over i, j, the batch b
  and the positions p, q of pair(A b (768·i + p), A b (768·j + q)). A position P < 9216 is 768·i + p for exactly
  one (i, p), so this is the sum over b, P, Q of pair(A b P, A b Q), which is what the reference computes.
  Sums of extended reals commute and regroup freely, so nothing is asked of the terms.
-/
import proofs.«156140_j33363305955887_2_alg».proof.Proof.PushTile
import proofs.«156140_j33363305955887_2_alg».proof.Proof.PushRef

noncomputable section

open scoped BigOperators

namespace Cert.Bridge

open Idealize.ShloMosaic Idealize.ShloMosaic.ValueIdx Cert.KernelIdeal Cert.KernelIdeal.Gen

/-- Tile k of a [2, 9216] array at (b, p) is the array at (b, 768·k + p). -/
theorem tile_apply (A : Vec Ideal S2x9216 .f32) (k : Fin 12) (b : Fin 2) (p : Fin 768) :
    tile A k (ix2 b p) = A (ix2 b (⟨768 * k.val + p.val, tile_lt (T := 12) (B := 768) (N := 9216) rfl k p⟩ : Fin 9216)) := rfl

/-- The total one grid point adds: the pair terms of tile i against tile j. -/
def tileTotal (A : Vec Ideal S2x9216 .f32) (i j : Fin 12) : EReal :=
  ∑ b : Fin 2, ∑ p : Fin 768, ∑ q : Fin 768, pair (tile A i (ix2 b p)) (tile A j (ix2 b q))

/-- The running total after n grid points is the sum of the first n points' totals. -/
theorem pushAcc_eq (A : Vec Ideal S2x9216 .f32) : ∀ n : ℕ,
    pushAcc A n (ix2 (0 : Fin 1) (0 : Fin 1))
      = ∑ t ∈ Finset.range n,
          tileTotal A ⟨t / 12 % 12, Nat.mod_lt _ (by decide)⟩ ⟨t % 12, Nat.mod_lt _ (by decide)⟩
  | 0 => by
    rw [Finset.sum_range_zero]
    exact Ideal.ofBits_zero_f32
  | n + 1 => by
    rw [Finset.sum_range_succ, ← pushAcc_eq A n]
    exact k1_pay2_eq _ _ _

/-- The 12 × 12 grid of tile pairs covers every pair of positions once. -/
theorem regroup (A : Vec Ideal S2x9216 .f32) :
    ∑ i : Fin 12, ∑ j : Fin 12, tileTotal A i j
      = ∑ b : Fin 2, ∑ P : Fin 9216, ∑ Q : Fin 9216, pair (A (ix2 b P)) (A (ix2 b Q)) := by
  have hR : ∀ b : Fin 2, ∑ P : Fin 9216, ∑ Q : Fin 9216, pair (A (ix2 b P)) (A (ix2 b Q))
      = ∑ i : Fin 12, ∑ p : Fin 768, ∑ j : Fin 12, ∑ q : Fin 768,
          pair (A (ix2 b (⟨768 * i.val + p.val, tile_lt (T := 12) (B := 768) (N := 9216) rfl i p⟩ : Fin 9216)))
            (A (ix2 b (⟨768 * j.val + q.val, tile_lt (T := 12) (B := 768) (N := 9216) rfl j q⟩ : Fin 9216))) := by
    intro b
    refine (sum_tiles 12 768 9216 rfl _).trans ?_
    refine Finset.sum_congr rfl fun i _ => Finset.sum_congr rfl fun p _ => ?_
    exact sum_tiles 12 768 9216 rfl _
  simp only [hR, tileTotal, tile_apply]
  refine ((Finset.sum_congr rfl fun i _ => Finset.sum_comm).trans Finset.sum_comm).trans ?_
  refine Finset.sum_congr rfl fun b _ => Finset.sum_congr rfl fun i _ => ?_
  exact Finset.sum_comm

/-- What the second call leaves is the sum over every pair of positions of a batch. -/
theorem pushK_eq (A : Vec Ideal S2x9216 .f32) :
    pushK A (ix2 (0 : Fin 1) (0 : Fin 1))
      = ∑ b : Fin 2, ∑ P : Fin 9216, ∑ Q : Fin 9216, pair (A (ix2 b P)) (A (ix2 b Q)) := by
  refine (pushAcc_eq A 144).trans ?_
  refine (sum_range_grid 12 (by decide) (tileTotal A)).trans ?_
  exact regroup A

open Cert.ReferenceIdeal.Read in
/-- The second call's result equals the reference's all-pairs total. -/
theorem push_eq (x0 : Vec Ideal S2x4x96x96 .f32) (x1 : Vec Ideal S2x2x96x96 .f32) :
    pushK (val_main_v43 (F := Ideal) x0 x1) (ix2 (0 : Fin 1) (0 : Fin 1)) = val_main_v62 (F := Ideal) x0 x1 ix0 :=
  (pushK_eq _).trans (ref_total x0 x1).symm

end Cert.Bridge

end
-- ==== Proof.Tail.lean ====
/-
  The closing scalar arithmetic of the idealized kernel's program against the reference's last stages. Entry k of the
  row of totals, as a scalar, is the row at column k; and when the row's four entries and the 1 × 1 total are the
  reference's five totals (the masked smooth-L1 total, the pull total, the mask total, the count of nonzero averaged
  tags, the pairwise push total), the loss 0.01 · ((5 · den) / max(1, msum) + pull / max(1, msum) + (p − nz)) is
  the reference's result: the same operations of the same five scalars, in the same order.
-/
import proofs.«156140_j33363305955887_2_alg».proof.Proof.KTail
import proofs.«156140_j33363305955887_2_alg».proof.Proof.Gen.ReferenceIdeal.Read
import Idealize.ShloMosaic.Lib.Pipeline.Value
import Idealize.ShloMosaic.Lib.ValueIdx

noncomputable section

namespace Cert.Bridge

open Idealize.ShloMosaic Cert.KernelIdeal Cert.KernelIdeal.Gen
open Cert.ReferenceIdeal.Read ValueIdx

/-- In a shape of one element every index sits at row-major position zero. -/
theorem rowMajor_val_of_numel_one {s : Shape} (h : s.numel = 1) (i : s.Idx) : (s.rowMajor i).val = 0 :=
  Nat.lt_one_iff.mp (lt_of_lt_of_eq (s.rowMajor i).isLt h)

/-- A 1 × 1 array cast to a scalar reads its one element. -/
theorem shapeCast_S1x1_S__apply (y : Vec Ideal S1x1 .f32) :
    shapeCast S_ y shapeCasts_S1x1_S_ ix0 = y (ix2 (0 : Fin 1) (0 : Fin 1)) :=
  shapeCast_apply y shapeCasts_S1x1_S_ ix0 (ix2 (0 : Fin 1) (0 : Fin 1))
    ((rowMajor_val_of_numel_one (s := S1x1) (by decide) _).trans (rowMajor_val_of_numel_one (s := S_) (by decide) _).symm)

/-- Entry k of the row of totals, as a scalar, is the row at column k: a [0:1, k:k+1] slice, then a cast to a scalar. -/
theorem entryK_apply (s : Vec Ideal S1x4 .f32) (k : Fin 4) : entryK s k ix0 = s (ix2 (0 : Fin 1) k) := by
  match k with
  | ⟨0, _⟩ =>
    show shapeCast S_ (extractStridedSlice S1x1 ![0, 0] s slices_S1x4_S1x1_0_0) shapeCasts_S1x1_S_ ix0 = _
    refine (shapeCast_S1x1_S__apply _).trans ?_
    exact extractStridedSlice_apply ![0, 0] s slices_S1x4_S1x1_0_0 _ _ (fun a => match a with
      | ⟨0, _⟩ => by show 0 = 0 + 0; omega
      | ⟨1, _⟩ => by show 0 = 0 + 0; omega)
  | ⟨1, _⟩ =>
    show shapeCast S_ (extractStridedSlice S1x1 ![0, 1] s slices_S1x4_S1x1_0_1) shapeCasts_S1x1_S_ ix0 = _
    refine (shapeCast_S1x1_S__apply _).trans ?_
    exact extractStridedSlice_apply ![0, 1] s slices_S1x4_S1x1_0_1 _ _ (fun a => match a with
      | ⟨0, _⟩ => by show 0 = 0 + 0; omega
      | ⟨1, _⟩ => by show 1 = 1 + 0; omega)
  | ⟨2, _⟩ =>
    show shapeCast S_ (extractStridedSlice S1x1 ![0, 2] s slices_S1x4_S1x1_0_2) shapeCasts_S1x1_S_ ix0 = _
    refine (shapeCast_S1x1_S__apply _).trans ?_
    exact extractStridedSlice_apply ![0, 2] s slices_S1x4_S1x1_0_2 _ _ (fun a => match a with
      | ⟨0, _⟩ => by show 0 = 0 + 0; omega
      | ⟨1, _⟩ => by show 2 = 2 + 0; omega)
  | ⟨3, _⟩ =>
    show shapeCast S_ (extractStridedSlice S1x1 ![0, 3] s slices_S1x4_S1x1_0_3) shapeCasts_S1x1_S_ ix0 = _
    refine (shapeCast_S1x1_S__apply _).trans ?_
    exact extractStridedSlice_apply ![0, 3] s slices_S1x4_S1x1_0_3 _ _ (fun a => match a with
      | ⟨0, _⟩ => by show 0 = 0 + 0; omega
      | ⟨1, _⟩ => by show 3 = 3 + 0; omega)

/-- The loss from the two calls' results is the reference's, once the row's entries and the total are the reference's
    five totals: both are the same chain of scalar operations over them. -/
theorem tail_eq_of (s : Vec Ideal S1x4 .f32) (p : Vec Ideal S1x1 .f32) (x0 : Vec Ideal S2x4x96x96 .f32) (x1 : Vec Ideal S2x2x96x96 .f32)
    (hd : s (ix2 (0 : Fin 1) (0 : Fin 4)) = val_main_v21 (F := Ideal) x0 x1 ix0)
    (hp : s (ix2 (0 : Fin 1) (1 : Fin 4)) = val_main_v38 (F := Ideal) x0 x1 ix0)
    (hm : s (ix2 (0 : Fin 1) (2 : Fin 4)) = val_main_v3 (F := Ideal) x1 ix0)
    (hn : s (ix2 (0 : Fin 1) (3 : Fin 4)) = val_main_v63 (F := Ideal) x0 x1 ix0)
    (hq : p (ix2 (0 : Fin 1) (0 : Fin 1)) = val_main_v62 (F := Ideal) x0 x1 ix0) :
    tailK s p = val_main_v67 (F := Ideal) x0 x1 := by
  have e0 : entryK s 0 = val_main_v21 (F := Ideal) x0 x1 := funext fun i => by
    obtain rfl : i = ix0 := eq_ix0 i
    exact (entryK_apply s 0).trans hd
  have e1 : entryK s 1 = val_main_v38 (F := Ideal) x0 x1 := funext fun i => by
    obtain rfl : i = ix0 := eq_ix0 i
    exact (entryK_apply s 1).trans hp
  have e2 : entryK s 2 = val_main_v3 (F := Ideal) x1 := funext fun i => by
    obtain rfl : i = ix0 := eq_ix0 i
    exact (entryK_apply s 2).trans hm
  have e3 : entryK s 3 = val_main_v63 (F := Ideal) x0 x1 := funext fun i => by
    obtain rfl : i = ix0 := eq_ix0 i
    exact (entryK_apply s 3).trans hn
  have eP : shapeCast S_ p shapeCasts_S1x1_S_ = val_main_v62 (F := Ideal) x0 x1 := funext fun i => by
    obtain rfl : i = ix0 := eq_ix0 i
    exact (shapeCast_S1x1_S__apply p).trans hq
  unfold tailK
  rw [e0, e1, e2, e3, eP]
  unfold val_main_v67 val_main_v66 val_main_v65 val_main_v64 val_main_v23 val_main_v22 val_main_v39 val_main_v4
    val_main_cst_15 val_main_cst_6 val_main_cst_0
  rfl

end Cert.Bridge

end
-- ==== Proof.Result.lean ====
/-
  The two idealized programs compute one function of the argument arrays. The kernel's loss is the closing
  arithmetic applied to its first call's four totals and its second call's accumulated all-pairs total; each of those
  five scalars equals the reference's corresponding stage (the two-stage sums against the reference's total sums, the
  144 tile-pair totals against the one sum over all pairs — regroupings of finite sums of extended reals, which need
  no finiteness), and the closing arithmetic is the same on both sides.
-/
import proofs.«156140_j33363305955887_2_alg».proof.Proof.ElemAll
import proofs.«156140_j33363305955887_2_alg».proof.Proof.PushAll
import proofs.«156140_j33363305955887_2_alg».proof.Proof.Tail

noncomputable section

namespace Cert.Bridge

open Idealize.ShloMosaic Cert.KernelIdeal Cert.ReferenceIdeal.Read ValueIdx

/-- The kernel's loss, from the launch arrays, is the reference's last stage. -/
theorem result_eq (x0 : Vec Ideal S2x4x96x96 .f32) (x1 : Vec Ideal S2x2x96x96 .f32) :
    tailK (scalK x0 x1) (pushK (aFlatK x0 x1)) = val_main_v67 (F := Ideal) x0 x1 :=
  tail_eq_of _ _ x0 x1 (den_eq x0 x1) (pull_eq x0 x1) (msum_eq x0 x1) (nz_eq x0 x1)
    (by rw [aFlat_eq]; exact push_eq x0 x1)

end Cert.Bridge

end
-- ==== Proof.lean ====
/-
  A tag-embedding loss (density, pull, push) computed by two kernel calls, against its plain reference.

  The first call reads the prediction [2,4,96,96] and the label [2,2,96,96] whole and writes a row of four totals
  (the masked smooth-L1 total of the density, the pull total of the normalized tags around their masked mean, the mask
  total, the count of nonzero averaged tags) and the array a of masked averaged tags. After a reshape of a to
  [2, 9216], the second call walks a 12 × 12 grid of pairs of 768-column tiles of that one array — both of its
  input windows read it — and accumulates, in a result block that stays in place and is written back once at the
  last point, the total over all pairs (p, q) of nz(p)·nz(q)·max(1 − |a(p) − a(q)|, 0). A few scalar operations
  combine the five numbers into the loss.

  Frames. Each call's body is run symbolically at every grid point (the second call in two cases: the first point
  stores zero before accumulating, every other point adds to what the point before left), which gives the proof data
  of both pipelines; the program is then the run of four segments — call, reshape, call, scalar arithmetic — over the
  contents of every unscoped buffer at each boundary. Because the second call's two windows share an array, its
  buffer is held in two halves while that call runs and rejoined after it. The same text serves the word-level
  program and the idealized one.

  Values. Over the extended reals the idealized kernel's result is the closing arithmetic of five scalars, and each
  equals the reference's corresponding stage: a sum taken in two stages (rows, then the column of row sums) is the
  total sum, the 144 tile-pair totals add up to the sum over all 2·9216·9216 pairs, and the two spellings of
  "a ≠ 0 as 0/1" agree where there is no NaN. These are regroupings and reindexings of finite sums of extended reals,
  valid without any finiteness of the inputs, so the precondition is never opened. The ideal pass rewrote nothing,
  so there is nothing to preserve.
-/
import proofs.«156140_j33363305955887_2_alg».proof.Defs
import proofs.«156140_j33363305955887_2_alg».proof.Proof.Gen.Kernel
import proofs.«156140_j33363305955887_2_alg».proof.Proof.Gen.KernelIdeal
import proofs.«156140_j33363305955887_2_alg».proof.Proof.Gen.ReferenceIdeal
import proofs.«156140_j33363305955887_2_alg».proof.Proof.Gen.ReferenceIdeal.Run
import proofs.«156140_j33363305955887_2_alg».proof.Proof.Gen.ReferenceIdeal.Read
import proofs.«156140_j33363305955887_2_alg».proof.Proof.Gen.Pre_finite_inputs
import proofs.«156140_j33363305955887_2_alg».proof.Proof.K.RunEnd
import proofs.«156140_j33363305955887_2_alg».proof.Proof.KI.RunEnd
import proofs.«156140_j33363305955887_2_alg».proof.Proof.KI.RunValue
import proofs.«156140_j33363305955887_2_alg».proof.Proof.Result
import Idealize.ShloMosaic.Adequacy
import Idealize.ShloMosaic.Init

noncomputable section

namespace Cert.Proof

open Idealize.ShloMosaic Idealize.SL.Sem

/-- The word-level program runs to the end, faults nowhere, and leaves both argument arrays as launched. -/
theorem frame_p [Cert.Kernel.Facts] [Cert.Pre_finite_inputs.Facts] : Cert.frame_Kernel :=
  fun m ρ _ => Cert.Kernel.Hand.frame m ρ

/-- So does the idealized program. -/
theorem frame_pi [Cert.KernelIdeal.Facts] [Cert.Pre_finite_inputs.Facts] : Cert.frame_KernelIdeal :=
  fun m ρ _ => Cert.KernelIdeal.Hand.frame m ρ

/-- The reference has no kernel: its frame is its run with the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- Nothing was rewritten on the way to the idealized program. -/
theorem preserves : Cert.preserves_Kernel_KernelIdeal := trivial

/-- From memories that agree on the arguments both idealized programs end with one and the same loss: the kernel's
    run names its result as a function of the launch arrays, the reference's run names its own, and the two
    functions are equal. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v67_eq, (hagree c).1, (hagree c).2]
  exact (Cert.Bridge.result_eq _ _).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
